-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part6 {F : FTy → Type} [FloatOps F] (main_v98 : IVec S_ 1) (main_v101 : IVec S8 1) (main_c_39 : IVec S_ 1) : IVec S_ 1 :=
  let main_v102 : IVec S_ 1 := (fun x v => Host.reduce IntOp.andi x v reducesTo_S8_S_d0 h_S_) main_v101 main_c_39
  let main_v103 : IVec S_ 1 := andi main_v98 main_v102
  main_v103

def fn_part5 {F : FTy → Type} [FloatOps F] (main_arg19 : FVec F S16 .f32) (main_arg20 : FVec F S16x8 .f32) (main_arg21 : FVec F S8 .f32) (main_v83 : IVec S_ 1) (main_v84 : FVec F S16 .f32) (main_cst_32 : FVec F S_ .f32) : IVec S_ 1 :=
  let main_v85 : FVec F S16 .f32 := broadcastInDim S16 ![] bcast_S_S16 main_cst_32
  let main_v86 : IVec S16 1 := cmpf .olt main_v84 main_v85
  let main_c_33 : IVec S_ 1 := constantI S_ 1 1#1
  let main_v87 : IVec S_ 1 := (fun x v => Host.reduce IntOp.andi x v reducesTo_S16_S_d0 h_S_) main_v86 main_c_33
  let main_v88 : IVec S_ 1 := andi main_v83 main_v87
  let main_v89 : FVec F S16 .f32 := Host.absf main_arg19
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16x8 .f32 := Host.absf main_arg20
  let main_cst_36 : FVec F S_ .f32 := constant S_ .f32 0x7F800000#32
  let main_v95 : FVec F S16x8 .f32 := broadcastInDim S16x8 ![] bcast_S_S16x8 main_cst_36
  let main_v96 : IVec S16x8 1 := cmpf .olt main_v94 main_v95
  let main_c_37 : IVec S_ 1 := constantI S_ 1 1#1
  let main_v97 : IVec S_ 1 := (fun x v => Host.reduce IntOp.andi x v reducesTo_S16x8_S_d0_1 h_S_) main_v96 main_c_37
  let main_v98 : IVec S_ 1 := andi main_v93 main_v97
  let main_v99 : FVec F S8 .f32 := Host.absf main_arg21
  let main_cst_38 : FVec F S_ .f32 := constant S_ .f32 0x7F800000#32
  let main_v100 : FVec F S8 .f32 := broadcastInDim S8 ![] bcast_S_S8 main_cst_38
  let main_v101 : IVec S8 1 := cmpf .olt main_v99 main_v100
  let main_c_39 : IVec S_ 1 := constantI S_ 1 1#1
  fn_part6 (F := F) main_v98 main_v101 main_c_39

def fn_part4 {F : FTy → Type} [FloatOps F] (main_arg15 : FVec F S16 .f32) (main_arg16 : FVec F S16 .f32) (main_arg17 : FVec F S16 .f32) (main_arg18 : FVec F S16 .f32) (main_arg19 : FVec F S16 .f32) (main_arg20 : FVec F S16x8 .f32) (main_arg21 : FVec F S8 .f32) (main_v63 : IVec S_ 1) (main_v67 : IVec S_ 1) : IVec S_ 1 :=
  let main_v68 : IVec S_ 1 := andi main_v63 main_v67
  let main_v69 : FVec F S16 .f32 := Host.absf main_arg15
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  let main_v74 : FVec F S16 .f32 := Host.absf main_arg16
  let main_cst_28 : FVec F S_ .f32 := constant S_ .f32 0x7F800000#32
  let main_v75 : FVec F S16 .f32 := broadcastInDim S16 ![] bcast_S_S16 main_cst_28
  let main_v76 : IVec S16 1 := cmpf .olt main_v74 main_v75
  let main_c_29 : IVec S_ 1 := constantI S_ 1 1#1
  let main_v77 : IVec S_ 1 := (fun x v => Host.reduce IntOp.andi x v reducesTo_S16_S_d0 h_S_) main_v76 main_c_29
  let main_v78 : IVec S_ 1 := andi main_v73 main_v77
  let main_v79 : FVec F S16 .f32 := Host.absf main_arg17
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S32 .f32) (main_arg13 : FVec F S32 .f32) (main_arg14 : FVec F S32x16 .f32) (main_arg15 : FVec F S16 .f32) (main_arg16 : FVec F S16 .f32) (main_arg17 : FVec F S16 .f32) (main_arg18 : FVec F S16 .f32) (main_arg19 : FVec F S16 .f32) (main_arg20 : FVec F S16x8 .f32) (main_arg21 : FVec F S8 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x16 .f32 := Host.absf main_arg14
  let main_cst_24 : FVec F S_ .f32 := constant S_ .f32 0x7F800000#32
  let main_v65 : FVec F S32x16 .f32 := broadcastInDim S32x16 ![] bcast_S_S32x16 main_cst_24
  let main_v66 : IVec S32x16 1 := cmpf .olt main_v64 main_v65
  let main_c_25 : IVec S_ 1 := constantI S_ 1 1#1
  let main_v67 : IVec S_ 1 := (fun x v => Host.reduce IntOp.andi x v reducesTo_S32x16_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S64x32 .f32) (main_arg9 : FVec F S32 .f32) (main_arg10 : FVec F S32 .f32) (main_arg11 : FVec F S32 .f32) (main_arg12 : FVec F S32 .f32) (main_arg13 : FVec F S32 .f32) (main_arg14 : FVec F S32x16 .f32) (main_arg15 : FVec F S16 .f32) (main_arg16 : FVec F S16 .f32) (main_arg17 : FVec F S16 .f32) (main_arg18 : FVec F S16 .f32) (main_arg19 : FVec F S16 .f32) (main_arg20 : FVec F S16x8 .f32) (main_arg21 : FVec F S8 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S64 .f32) (main_arg6 : FVec F S64 .f32) (main_arg7 : FVec F S64 .f32) (main_arg8 : FVec F S64x32 .f32) (main_arg9 : FVec F S32 .f32) (main_arg10 : FVec F S32 .f32) (main_arg11 : FVec F S32 .f32) (main_arg12 : FVec F S32 .f32) (main_arg13 : FVec F S32 .f32) (main_arg14 : FVec F S32x16 .f32) (main_arg15 : FVec F S16 .f32) (main_arg16 : FVec F S16 .f32) (main_arg17 : FVec F S16 .f32) (main_arg18 : FVec F S16 .f32) (main_arg19 : FVec F S16 .f32) (main_arg20 : FVec F S16x8 .f32) (main_arg21 : FVec F S8 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x128 .f32) (main_arg1 : IVec S2x1600000 32) (main_arg2 : FVec F S128x64 .f32) (main_arg3 : FVec F S64 .f32) (main_arg4 : FVec F S64 .f32) (main_arg5 : FVec F S64 .f32) (main_arg6 : FVec F S64 .f32) (main_arg7 : FVec F S64 .f32) (main_arg8 : FVec F S64x32 .f32) (main_arg9 : FVec F S32 .f32) (main_arg10 : FVec F S32 .f32) (main_arg11 : FVec F S32 .f32) (main_arg12 : FVec F S32 .f32) (main_arg13 : FVec F S32 .f32) (main_arg14 : FVec F S32x16 .f32) (main_arg15 : FVec F S16 .f32) (main_arg16 : FVec F S16 .f32) (main_arg17 : FVec F S16 .f32) (main_arg18 : FVec F S16 .f32) (main_arg19 : FVec F S16 .f32) (main_arg20 : FVec F S16x8 .f32) (main_arg21 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x64 : Shape := ⟨2, ![1, 64]⟩
abbrev S5000x1 : Shape := ⟨2, ![5000, 1]⟩
abbrev S100000x32 : Shape := ⟨2, ![100000, 32]⟩
abbrev S5000x32 : Shape := ⟨2, ![5000, 32]⟩
abbrev S1600000x32 : Shape := ⟨2, ![1600000, 32]⟩
abbrev S1x32 : Shape := ⟨2, ![1, 32]⟩
abbrev S100000x16 : Shape := ⟨2, ![100000, 16]⟩
abbrev S5000x16 : Shape := ⟨2, ![5000, 16]⟩
abbrev S1600000x16 : Shape := ⟨2, ![1600000, 16]⟩
abbrev S1x16 : Shape := ⟨2, ![1, 16]⟩
abbrev S1x8 : Shape := ⟨2, ![1, 8]⟩
abbrev S100000x8 : Shape := ⟨2, ![100000, 8]⟩
abbrev S5000x8 : Shape := ⟨2, ![5000, 8]⟩

abbrev nBuf : Space → Nat
  | .hbm => 165
  | .vmem => 60
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64, .f32⟩
  | 7 => ⟨S64, .f32⟩
  | 8 => ⟨S64x32, .f32⟩
  | 9 => ⟨S32, .f32⟩
  | 10 => ⟨S32, .f32⟩
  | 11 => ⟨S32, .f32⟩
  | 12 => ⟨S32, .f32⟩
  | 13 => ⟨S32, .f32⟩
  | 14 => ⟨S32x16, .f32⟩
  | 15 => ⟨S16, .f32⟩
  | 16 => ⟨S16, .f32⟩
  | 17 => ⟨S16, .f32⟩
  | 18 => ⟨S16, .f32⟩
  | 19 => ⟨S16, .f32⟩
  | 20 => ⟨S16x8, .f32⟩
  | 21 => ⟨S8, .f32⟩
  | 22 => ⟨S1x1600000, .i32⟩
  | 23 => ⟨S1600000, .i32⟩
  | 24 => ⟨S1x1600000, .i32⟩
  | 25 => ⟨S1600000, .i32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .f32⟩
  | 35 => ⟨S100000, .f32⟩
  | 36 => ⟨S100000x1, .f32⟩
  | 37 => ⟨S100000x64, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1600000x1, .f32⟩
  | 67 => ⟨S1600000x64, .f32⟩
  | 68 => ⟨S1600000x64, .f32⟩
  | 69 => ⟨S_, .f32⟩
  | 70 => ⟨S100000x64, .f32⟩
  | 71 => ⟨S1600000x1, .i32⟩
  | 72 => ⟨S100000x64, .f32⟩
  | 73 => ⟨S1x64, .f32⟩
  | 74 => ⟨S1x64, .f32⟩
  | 75 => ⟨S1x64, .f32⟩
  | 76 => ⟨S1x64, .f32⟩
  | 77 => ⟨S1x64, .f32⟩
  | 78 => ⟨S100000x64, .f32⟩
  | 79 => ⟨S100000x32, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x32, .f32⟩
  | 108 => ⟨S1600000x1, .f32⟩
  | 109 => ⟨S1600000x32, .f32⟩
  | 110 => ⟨S1600000x32, .f32⟩
  | 111 => ⟨S_, .f32⟩
  | 112 => ⟨S100000x32, .f32⟩
  | 113 => ⟨S1600000x1, .i32⟩
  | 114 => ⟨S100000x32, .f32⟩
  | 115 => ⟨S1x32, .f32⟩
  | 116 => ⟨S1x32, .f32⟩
  | 117 => ⟨S1x32, .f32⟩
  | 118 => ⟨S1x32, .f32⟩
  | 119 => ⟨S1x32, .f32⟩
  | 120 => ⟨S100000x32, .f32⟩
  | 121 => ⟨S100000x16, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x128, .f32⟩

abbrev hbmTy0_1 (i : Nat) : BufTy := match i % 128 with
  | 0 => ⟨S1600000, .i32⟩
  | 1 => ⟨S1600000x1, .i32⟩
  | 2 => ⟨S1600000, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000, .f32⟩
  | 12 => ⟨S1600000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x16, .f32⟩
  | 22 => ⟨S1600000x1, .f32⟩
  | 23 => ⟨S1600000x16, .f32⟩
  | 24 => ⟨S1600000x16, .f32⟩
  | 25 => ⟨S_, .f32⟩
  | 26 => ⟨S100000x16, .f32⟩
  | 27 => ⟨S1600000x1, .i32⟩
  | 28 => ⟨S100000x16, .f32⟩
  | 29 => ⟨S1x16, .f32⟩
  | 30 => ⟨S1x16, .f32⟩
  | 31 => ⟨S1x16, .f32⟩
  | 32 => ⟨S1x16, .f32⟩
  | 33 => ⟨S1x16, .f32⟩
  | 34 => ⟨S100000x16, .f32⟩
  | 35 => ⟨S1x8, .f32⟩
  | 36 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x1, .f32⟩
  | .local _ .vmem, ⟨28, _⟩ => ⟨S5000x1, .f32⟩
  | .local _ .vmem, ⟨29, _⟩ => ⟨S1x32, .f32⟩
  | .local _ .vmem, ⟨30, _⟩ => ⟨S1x32, .f32⟩
  | .local _ .vmem, ⟨31, _⟩ => ⟨S1x32, .f32⟩
  | .local _ .vmem, ⟨32, _⟩ => ⟨S1x32, .f32⟩
  | .local _ .vmem, ⟨33, _⟩ => ⟨S1x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x32, .f32⟩
  | .local _ .vmem, ⟨38, _⟩ => ⟨S32x16, .f32⟩
  | .local _ .vmem, ⟨39, _⟩ => ⟨S5000x16, .f32⟩
  | .local _ .vmem, ⟨40, _⟩ => ⟨S5000x16, .f32⟩
  | .local _ .vmem, ⟨41, _⟩ => ⟨S5000x16, .f32⟩
  | .local _ .vmem, ⟨42, _⟩ => ⟨S5000x16, .f32⟩
  | .local _ .vmem, ⟨43, _⟩ => ⟨S5000x16, .f32⟩
  | .local _ .vmem, ⟨44, _⟩ => ⟨S5000x16, .f32⟩
  | .local _ .vmem, ⟨45, _⟩ => ⟨S5000x1, .f32⟩
  | .local _ .vmem, ⟨46, _⟩ => ⟨S5000x1, .f32⟩
  | .local _ .vmem, ⟨47, _⟩ => ⟨S1x16, .f32⟩
  | .local _ .vmem, ⟨48, _⟩ => ⟨S1x16, .f32⟩
  | .local _ .vmem, ⟨49, _⟩ => ⟨S1x16, .f32⟩
  | .local _ .vmem, ⟨50, _⟩ => ⟨S1x16, .f32⟩
  | .local _ .vmem, ⟨51, _⟩ => ⟨S1x16, .f32⟩
  | .local _ .vmem, ⟨52, _⟩ => ⟨S5000x16, .f32⟩
  | .local _ .vmem, ⟨53, _⟩ => ⟨S5000x16, .f32⟩
  | .local _ .vmem, ⟨54, _⟩ => ⟨S5000x16, .f32⟩
  | .local _ .vmem, ⟨55, _⟩ => ⟨S5000x16, .f32⟩
  | .local _ .vmem, ⟨56, _⟩ => ⟨S16x8, .f32⟩
  | .local _ .vmem, ⟨57, _⟩ => ⟨S1x8, .f32⟩
  | .local _ .vmem, ⟨58, _⟩ => ⟨S5000x8, .f32⟩
  | .local _ .vmem, ⟨59, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_c : Ref sig .tc := ⟨.hbm, 38, rfl⟩
abbrev main_v13 : Ref sig .tc := ⟨.hbm, 39, rfl⟩
abbrev main_v14 : Ref sig .tc := ⟨.hbm, 40, rfl⟩
abbrev main_c_2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_3 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_8 : Ref sig .tc := ⟨.hbm, 80, rfl⟩
abbrev main_v48 : Ref sig .tc := ⟨.hbm, 81, rfl⟩
abbrev main_v49 : Ref sig .tc := ⟨.hbm, 82, rfl⟩
abbrev main_c_9 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_10 : Ref sig .tc := ⟨.hbm, 89, rfl⟩
abbrev main_v55 : Ref sig .tc := ⟨.hbm, 90, rfl⟩
abbrev main_v56 : Ref sig .tc := ⟨.hbm, 91, rfl⟩
abbrev main_c_11 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_c_12 : Ref sig .tc := ⟨.hbm, 99, rfl⟩
abbrev main_v63 : Ref sig .tc := ⟨.hbm, 100, rfl⟩
abbrev main_v64 : Ref sig .tc := ⟨.hbm, 101, rfl⟩
abbrev main_c_13 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_14 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_15 : Ref sig .tc := ⟨.hbm, 122, rfl⟩
abbrev main_v83 : Ref sig .tc := ⟨.hbm, 123, rfl⟩
abbrev main_v84 : Ref sig .tc := ⟨.hbm, 124, rfl⟩
abbrev main_c_16 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_17 : Ref sig .tc := ⟨.hbm, 131, rfl⟩
abbrev main_v90 : Ref sig .tc := ⟨.hbm, 132, rfl⟩
abbrev main_v91 : Ref sig .tc := ⟨.hbm, 133, rfl⟩
abbrev main_c_18 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_19 : Ref sig .tc := ⟨.hbm, 141, rfl⟩
abbrev main_v98 : Ref sig .tc := ⟨.hbm, 142, rfl⟩
abbrev main_v99 : Ref sig .tc := ⟨.hbm, 143, rfl⟩
abbrev main_c_20 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_21 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg8_0 : Ref sig .tc := ⟨.vmem, 52, rfl⟩
abbrev cc5_stg8_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem7_0 : DmaSem sig := 51
abbrev cc5_sem8_0 : DmaSem sig := 52
abbrev cc5_sem8_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x32 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x16 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x16 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x16 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x16 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x16 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x16 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S5000x16 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x16 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S16x8 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x8 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x8 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S8_S1x8 : S8.ShapeCasts S1x8
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x16_S5000x16_1_0_0_1_n_n_wf : DotDims.WF S5000x32 S32x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x8_S5000x8_1_0_0_1_n_n_wf : DotDims.WF S5000x16 S16x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S100000x64.size a
  hwx1_8 : ∀ i : grid1.Coords, EltTy.bits .f32 = 32 ∨ (Rect.block (s := S100000x64) S5000x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x32.size a ≤ S1x32.size a
  hwx3_6 : ∀ i : grid3.Coords, EltTy.bits .f32 = 32 ∨ (Rect.block (s := S1x32) S1x32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x32.size a ≤ S1x32.size a
  hwx3_7 : ∀ i : grid3.Coords, EltTy.bits .f32 = 32 ∨ (Rect.block (s := S1x32) S1x32.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x32.size a ≤ S100000x32.size a
  hwx3_8 : ∀ i : grid3.Coords, EltTy.bits .f32 = 32 ∨ (Rect.block (s := S100000x32) S5000x32.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x16.size a ≤ S32x16.size a
  hwx4_1 : ∀ i : grid4.Coords, EltTy.bits .f32 = 32 ∨ (Rect.block (s := S32x16) S32x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S100000x16.size a
  hwx4_2 : ∀ i : grid4.Coords, EltTy.bits .f32 = 32 ∨ (Rect.block (s := S100000x16) S5000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x16.size a ≤ S100000x16.size a
  hwx5_1 : ∀ i : grid5.Coords, EltTy.bits .f32 = 32 ∨ (Rect.block (s := S100000x16) S5000x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x16.size a ≤ S1x16.size a
  hwx5_3 : ∀ i : grid5.Coords, EltTy.bits .f32 = 32 ∨ (Rect.block (s := S1x16) S1x16.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x16.size a ≤ S1x16.size a
  hwx5_4 : ∀ i : grid5.Coords, EltTy.bits .f32 = 32 ∨ (Rect.block (s := S1x16) S1x16.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x16.size a ≤ S1x16.size a
  hwx5_5 : ∀ i : grid5.Coords, EltTy.bits .f32 = 32 ∨ (Rect.block (s := S1x16) S1x16.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x16.size a ≤ S1x16.size a
  hwx5_6 : ∀ i : grid5.Coords, EltTy.bits .f32 = 32 ∨ (Rect.block (s := S1x16) S1x16.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x16.size a ≤ S1x16.size a
  hwx5_7 : ∀ i : grid5.Coords, EltTy.bits .f32 = 32 ∨ (Rect.block (s := S1x16) S1x16.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x16.size a ≤ S100000x16.size a
  hwx5_8 : ∀ i : grid5.Coords, EltTy.bits .f32 = 32 ∨ (Rect.block (s := S100000x16) S5000x16.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x16.size a ≤ S100000x16.size a
  hwx6_0 : ∀ i : grid6.Coords, EltTy.bits .f32 = 32 ∨ (Rect.block (s := S100000x16) S5000x16.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S16x8.size a ≤ S16x8.size a
  hwx6_1 : ∀ i : grid6.Coords, EltTy.bits .f32 = 32 ∨ (Rect.block (s := S16x8) S16x8.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x8.size a ≤ S1x8.size a
  hwx6_2 : ∀ i : grid6.Coords, EltTy.bits .f32 = 32 ∨ (Rect.block (s := S1x8) S1x8.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x8.size a ≤ S100000x8.size a
  hwx6_3 : ∀ i : grid6.Coords, EltTy.bits .f32 = 32 ∨ (Rect.block (s := S100000x8) S5000x8.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v45) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v46) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v75) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v79) S1x32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v80) S1x32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v81) S5000x32.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v81) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S32x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S5000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v110) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S5000x16.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v111) S1x16.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v112) S1x16.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v113) S1x16.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v114) S1x16.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v115) S1x16.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v116) S5000x16.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v116) S5000x16.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg20) S16x8.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v117) S1x8.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v118) S5000x8.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩
abbrev S100000x16 : Shape := ⟨2, ![100000, 16]⟩
abbrev S1600000x16 : Shape := ⟨2, ![1600000, 16]⟩
abbrev S1x16 : Shape := ⟨2, ![1, 16]⟩
abbrev S100000x8 : Shape := ⟨2, ![100000, 8]⟩
abbrev S1x8 : Shape := ⟨2, ![1, 8]⟩

abbrev nBuf : Space → Nat
  | .hbm => 237
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64, .f32⟩
  | 5 => ⟨S64, .f32⟩
  | 6 => ⟨S64, .f32⟩
  | 7 => ⟨S64, .f32⟩
  | 8 => ⟨S64x32, .f32⟩
  | 9 => ⟨S32, .f32⟩
  | 10 => ⟨S32, .f32⟩
  | 11 => ⟨S32, .f32⟩
  | 12 => ⟨S32, .f32⟩
  | 13 => ⟨S32, .f32⟩
  | 14 => ⟨S32x16, .f32⟩
  | 15 => ⟨S16, .f32⟩
  | 16 => ⟨S16, .f32⟩
  | 17 => ⟨S16, .f32⟩
  | 18 => ⟨S16, .f32⟩
  | 19 => ⟨S16, .f32⟩
  | 20 => ⟨S16x8, .f32⟩
  | 21 => ⟨S8, .f32⟩
  | 22 => ⟨S1x1600000, .i32⟩
  | 23 => ⟨S1600000, .i32⟩
  | 24 => ⟨S1x1600000, .i32⟩
  | 25 => ⟨S1600000, .i32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .f32⟩
  | 35 => ⟨S100000, .f32⟩
  | 36 => ⟨S100000x64, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1600000x64, .f32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S100000, .f32⟩
  | 73 => ⟨S100000x1, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S64, .f32⟩
  | 88 => ⟨S64, .f32⟩
  | 89 => ⟨S64, .f32⟩
  | 90 => ⟨S1x64, .f32⟩
  | 91 => ⟨S100000x64, .f32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S100000x32, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000, .f32⟩
  | 118 => ⟨S1600000, .f32⟩
  | 119 => ⟨S1600000x1, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x32, .f32⟩
  | 1 => ⟨S1600000x32, .f32⟩
  | 2 => ⟨S1600000x32, .f32⟩
  | 3 => ⟨S_, .f32⟩
  | 4 => ⟨S100000x32, .f32⟩
  | 5 => ⟨S1600000x1, .i32⟩
  | 6 => ⟨S100000x32, .f32⟩
  | 7 => ⟨S100000, .f32⟩
  | 8 => ⟨S100000x1, .f32⟩
  | 9 => ⟨S100000x32, .f32⟩
  | 10 => ⟨S100000x32, .f32⟩
  | 11 => ⟨S100000x32, .f32⟩
  | 12 => ⟨S1x32, .f32⟩
  | 13 => ⟨S100000x32, .f32⟩
  | 14 => ⟨S100000x32, .f32⟩
  | 15 => ⟨S1x32, .f32⟩
  | 16 => ⟨S100000x32, .f32⟩
  | 17 => ⟨S100000x32, .f32⟩
  | 18 => ⟨S1x32, .f32⟩
  | 19 => ⟨S100000x32, .f32⟩
  | 20 => ⟨S100000x32, .f32⟩
  | 21 => ⟨S_, .f32⟩
  | 22 => ⟨S32, .f32⟩
  | 23 => ⟨S32, .f32⟩
  | 24 => ⟨S32, .f32⟩
  | 25 => ⟨S1x32, .f32⟩
  | 26 => ⟨S100000x32, .f32⟩
  | 27 => ⟨S100000x32, .f32⟩
  | 28 => ⟨S1x32, .f32⟩
  | 29 => ⟨S100000x32, .f32⟩
  | 30 => ⟨S100000x32, .f32⟩
  | 31 => ⟨S_, .f32⟩
  | 32 => ⟨S100000x32, .f32⟩
  | 33 => ⟨S100000x32, .f32⟩
  | 34 => ⟨S100000x16, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000, .f32⟩
  | 53 => ⟨S1600000, .f32⟩
  | 54 => ⟨S1600000x1, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x16, .f32⟩
  | 64 => ⟨S1600000x16, .f32⟩
  | 65 => ⟨S1600000x16, .f32⟩
  | 66 => ⟨S_, .f32⟩
  | 67 => ⟨S100000x16, .f32⟩
  | 68 => ⟨S1600000x1, .i32⟩
  | 69 => ⟨S100000x16, .f32⟩
  | 70 => ⟨S100000, .f32⟩
  | 71 => ⟨S100000x1, .f32⟩
  | 72 => ⟨S100000x16, .f32⟩
  | 73 => ⟨S100000x16, .f32⟩
  | 74 => ⟨S100000x16, .f32⟩
  | 75 => ⟨S1x16, .f32⟩
  | 76 => ⟨S100000x16, .f32⟩
  | 77 => ⟨S100000x16, .f32⟩
  | 78 => ⟨S1x16, .f32⟩
  | 79 => ⟨S100000x16, .f32⟩
  | 80 => ⟨S100000x16, .f32⟩
  | 81 => ⟨S1x16, .f32⟩
  | 82 => ⟨S100000x16, .f32⟩
  | 83 => ⟨S100000x16, .f32⟩
  | 84 => ⟨S_, .f32⟩
  | 85 => ⟨S16, .f32⟩
  | 86 => ⟨S16, .f32⟩
  | 87 => ⟨S16, .f32⟩
  | 88 => ⟨S1x16, .f32⟩
  | 89 => ⟨S100000x16, .f32⟩
  | 90 => ⟨S100000x16, .f32⟩
  | 91 => ⟨S1x16, .f32⟩
  | 92 => ⟨S100000x16, .f32⟩
  | 93 => ⟨S100000x16, .f32⟩
  | 94 => ⟨S_, .f32⟩
  | 95 => ⟨S100000x16, .f32⟩
  | 96 => ⟨S100000x16, .f32⟩
  | 97 => ⟨S100000x8, .f32⟩
  | 98 => ⟨S1x8, .f32⟩
  | 99 => ⟨S100000x8, .f32⟩
  | 100 => ⟨S100000x8, .f32⟩
  | 101 => ⟨S100000x8, .f32⟩
  | 102 => ⟨S100000x8, .f32⟩
  | 103 => ⟨S_, .f32⟩
  | 104 => ⟨S100000x8, .f32⟩
  | 105 => ⟨S100000x8, .f32⟩
  | 106 => ⟨S_, .f32⟩
  | 107 => ⟨S100000x8, .f32⟩
  | 108 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_v12 : Ref sig .tc := ⟨.hbm, 38, rfl⟩
abbrev main_v13 : Ref sig .tc := ⟨.hbm, 39, rfl⟩
abbrev main_c_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_v19 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_c_5 : Ref sig .tc := ⟨.hbm, 57, rfl⟩
abbrev main_v28 : Ref sig .tc := ⟨.hbm, 58, rfl⟩
abbrev main_v29 : Ref sig .tc := ⟨.hbm, 59, rfl⟩
abbrev main_c_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_7 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_8 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_call0_cst : Ref sig .tc := ⟨.hbm, 96, rfl⟩
abbrev main_call0_v0 : Ref sig .tc := ⟨.hbm, 97, rfl⟩
abbrev main_v63 : Ref sig .tc := ⟨.hbm, 98, rfl⟩
abbrev main_v64 : Ref sig .tc := ⟨.hbm, 99, rfl⟩
abbrev main_c_9 : Ref sig .tc := ⟨.hbm, 100, rfl⟩
abbrev main_v65 : Ref sig .tc := ⟨.hbm, 101, rfl⟩
abbrev main_v66 : Ref sig .tc := ⟨.hbm, 102, rfl⟩
abbrev main_c_10 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_11 : Ref sig .tc := ⟨.hbm, 109, rfl⟩
abbrev main_v72 : Ref sig .tc := ⟨.hbm, 110, rfl⟩
abbrev main_v73 : Ref sig .tc := ⟨.hbm, 111, rfl⟩
abbrev main_c_12 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_13 : Ref sig .tc := ⟨.hbm, 120, rfl⟩
abbrev main_v81 : Ref sig .tc := ⟨.hbm, 121, rfl⟩
abbrev main_v82 : Ref sig .tc := ⟨.hbm, 122, rfl⟩
abbrev main_c_14 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_15 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_16 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_call1_cst : Ref sig .tc := ⟨.hbm, 159, rfl⟩
abbrev main_call1_v0 : Ref sig .tc := ⟨.hbm, 160, rfl⟩
abbrev main_v116 : Ref sig .tc := ⟨.hbm, 161, rfl⟩
abbrev main_v117 : Ref sig .tc := ⟨.hbm, 162, rfl⟩
abbrev main_c_17 : Ref sig .tc := ⟨.hbm, 163, rfl⟩
abbrev main_v118 : Ref sig .tc := ⟨.hbm, 164, rfl⟩
abbrev main_v119 : Ref sig .tc := ⟨.hbm, 165, rfl⟩
abbrev main_c_18 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_c_19 : Ref sig .tc := ⟨.hbm, 172, rfl⟩
abbrev main_v125 : Ref sig .tc := ⟨.hbm, 173, rfl⟩
abbrev main_v126 : Ref sig .tc := ⟨.hbm, 174, rfl⟩
abbrev main_c_20 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_c_21 : Ref sig .tc := ⟨.hbm, 183, rfl⟩
abbrev main_v134 : Ref sig .tc := ⟨.hbm, 184, rfl⟩
abbrev main_v135 : Ref sig .tc := ⟨.hbm, 185, rfl⟩
abbrev main_c_22 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_23 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_24 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_call2_cst : Ref sig .tc := ⟨.hbm, 222, rfl⟩
abbrev main_call2_v0 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_cst_25 : Ref sig .tc := ⟨.hbm, 231, rfl⟩
abbrev main_v176 : Ref sig .tc := ⟨.hbm, 232, rfl⟩
abbrev main_v177 : Ref sig .tc := ⟨.hbm, 233, rfl⟩
abbrev main_cst_26 : Ref sig .tc := ⟨.hbm, 234, rfl⟩
abbrev main_v178 : Ref sig .tc := ⟨.hbm, 235, rfl⟩
abbrev main_v179 : Ref sig .tc := ⟨.hbm, 236, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S32 : S_.BroadcastsInDim S32 (![] : Fin 0 → Fin S32.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S16 : S_.BroadcastsInDim S16 (![] : Fin 0 → Fin S16.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x8_S100000x8_1_0_0_1_n_n_wf : DotDims.WF S100000x16 S16x8 S100000x8 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf

class Facts : Prop extends Facts₀ where

variable [Facts]
-- ==== Proof.KernelRun.lean ====
/-
  The kernel program's run with its result named.

  The program is seven kernel regions among stretches of host operations. Its generated frame follows the
  contents of every buffer from the launch through those twelve segments and then forgets all but the
  arguments. Here the same segments are launched with a post that keeps one more buffer: every weakly fair
  execution terminates with the result array at what the last region's write-backs leave, and the
  arguments as launched.
-/
import proofs.«153155_j71640054497345_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result array ends at the contents the fold through the
    segments gives it at the last boundary, and every argument array ends as launched. -/
theorem run : θ_run defs (onTc (τ := τ) (main (F := F))) ⟨m, fun _ => 0, ρ⟩ (fun r => ∀ c : Dev nD,
      r.2.mem ((c.tc : Thread nD τ).loc main_v118) = W12 m ρ c (Proc.devRef .tc main_v118)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v118 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c)⟩)

end Cert.KernelIdeal.Whole

end
-- ==== Proof.FoldKeep.lean ====
/-
  Buffers that segments do not write keep their contents.

  The kernel program's twelve segments alternate host stretches and kernel regions. A host stretch changes only
  the buffers its operations write; a region changes only its output array. So an argument array holds its
  launch contents at every boundary, and the edge endpoints, the inverse square-root degrees, their column form
  and each layer's transformed features hold, at the boundary where a later segment reads them, what the segment
  that computed them left. Each fact is the walk back through the segments in between.
-/
import proofs.«153155_j71640054497345_1_alg».proof.Proof.Gen.KernelIdeal.Frame
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## The arguments as launched -/

abbrev X0 : (⟨S100000x128, .f32⟩ : BufTy).Contents (Elt Ideal) := m ((c : Thread nD τ).loc main_arg0)
abbrev X1 : (⟨S2x1600000, .i32⟩ : BufTy).Contents (Elt Ideal) := m ((c : Thread nD τ).loc main_arg1)
abbrev X2 : (⟨S128x64, .f32⟩ : BufTy).Contents (Elt Ideal) := m ((c : Thread nD τ).loc main_arg2)
abbrev X3 : (⟨S64, .f32⟩ : BufTy).Contents (Elt Ideal) := m ((c : Thread nD τ).loc main_arg3)
abbrev X4 : (⟨S64, .f32⟩ : BufTy).Contents (Elt Ideal) := m ((c : Thread nD τ).loc main_arg4)
abbrev X5 : (⟨S64, .f32⟩ : BufTy).Contents (Elt Ideal) := m ((c : Thread nD τ).loc main_arg5)
abbrev X6 : (⟨S64, .f32⟩ : BufTy).Contents (Elt Ideal) := m ((c : Thread nD τ).loc main_arg6)
abbrev X7 : (⟨S64, .f32⟩ : BufTy).Contents (Elt Ideal) := m ((c : Thread nD τ).loc main_arg7)
abbrev X8 : (⟨S64x32, .f32⟩ : BufTy).Contents (Elt Ideal) := m ((c : Thread nD τ).loc main_arg8)
abbrev X9 : (⟨S32, .f32⟩ : BufTy).Contents (Elt Ideal) := m ((c : Thread nD τ).loc main_arg9)
abbrev X10 : (⟨S32, .f32⟩ : BufTy).Contents (Elt Ideal) := m ((c : Thread nD τ).loc main_arg10)
abbrev X11 : (⟨S32, .f32⟩ : BufTy).Contents (Elt Ideal) := m ((c : Thread nD τ).loc main_arg11)
abbrev X12 : (⟨S32, .f32⟩ : BufTy).Contents (Elt Ideal) := m ((c : Thread nD τ).loc main_arg12)
abbrev X13 : (⟨S32, .f32⟩ : BufTy).Contents (Elt Ideal) := m ((c : Thread nD τ).loc main_arg13)
abbrev X14 : (⟨S32x16, .f32⟩ : BufTy).Contents (Elt Ideal) := m ((c : Thread nD τ).loc main_arg14)
abbrev X15 : (⟨S16, .f32⟩ : BufTy).Contents (Elt Ideal) := m ((c : Thread nD τ).loc main_arg15)
abbrev X16 : (⟨S16, .f32⟩ : BufTy).Contents (Elt Ideal) := m ((c : Thread nD τ).loc main_arg16)
abbrev X17 : (⟨S16, .f32⟩ : BufTy).Contents (Elt Ideal) := m ((c : Thread nD τ).loc main_arg17)
abbrev X18 : (⟨S16, .f32⟩ : BufTy).Contents (Elt Ideal) := m ((c : Thread nD τ).loc main_arg18)
abbrev X19 : (⟨S16, .f32⟩ : BufTy).Contents (Elt Ideal) := m ((c : Thread nD τ).loc main_arg19)
abbrev X20 : (⟨S16x8, .f32⟩ : BufTy).Contents (Elt Ideal) := m ((c : Thread nD τ).loc main_arg20)
abbrev X21 : (⟨S8, .f32⟩ : BufTy).Contents (Elt Ideal) := m ((c : Thread nD τ).loc main_arg21)

/-! ## Buffers no segment in between writes keep their contents -/

theorem arg0_at : W1 m ρ c (Proc.devRef .tc main_arg0) = X0 m c :=
  calc W1 m ρ c (Proc.devRef .tc main_arg0)
    _ = W0 m ρ c (Proc.devRef .tc main_arg0) := StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg0) := rfl

theorem arg2_at : W1 m ρ c (Proc.devRef .tc main_arg2) = X2 m c :=
  calc W1 m ρ c (Proc.devRef .tc main_arg2)
    _ = W0 m ρ c (Proc.devRef .tc main_arg2) := StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg2) := rfl

theorem arg3_at : W2 m ρ c (Proc.devRef .tc main_arg3) = X3 m c :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

theorem arg4_at : W2 m ρ c (Proc.devRef .tc main_arg4) = X4 m c :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

theorem arg5_at : W2 m ρ c (Proc.devRef .tc main_arg5) = X5 m c :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

theorem arg6_at : W2 m ρ c (Proc.devRef .tc main_arg6) = X6 m c :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg6) := rfl

theorem arg7_at : W2 m ρ c (Proc.devRef .tc main_arg7) = X7 m c :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg7) := rfl

theorem arg8_at : W4 m ρ c (Proc.devRef .tc main_arg8) = X8 m c :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

theorem arg9_at : W5 m ρ c (Proc.devRef .tc main_arg9) = X9 m c :=
  calc W5 m ρ c (Proc.devRef .tc main_arg9)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl

theorem arg10_at : W5 m ρ c (Proc.devRef .tc main_arg10) = X10 m c :=
  calc W5 m ρ c (Proc.devRef .tc main_arg10)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg10) := rfl

theorem arg11_at : W5 m ρ c (Proc.devRef .tc main_arg11) = X11 m c :=
  calc W5 m ρ c (Proc.devRef .tc main_arg11)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg11) := rfl

theorem arg12_at : W5 m ρ c (Proc.devRef .tc main_arg12) = X12 m c :=
  calc W5 m ρ c (Proc.devRef .tc main_arg12)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg12) := rfl

theorem arg13_at : W5 m ρ c (Proc.devRef .tc main_arg13) = X13 m c :=
  calc W5 m ρ c (Proc.devRef .tc main_arg13)
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg13) := rfl

theorem arg14_at : W7 m ρ c (Proc.devRef .tc main_arg14) = X14 m c :=
  calc W7 m ρ c (Proc.devRef .tc main_arg14)
    _ = W6 m ρ c (Proc.devRef .tc main_arg14) := W7_of_ne m ρ c main_arg14 (by decide)
    _ = W5 m ρ c (Proc.devRef .tc main_arg14) := StableHlo.after_of_forall_not_mem (b := Proc.devRef .tc main_arg14) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg14) := W5_of_ne m ρ c main_arg14 (by decide)
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg14) := rfl

theorem arg15_at : W8 m ρ c (Proc.devRef .tc main_arg15) = X15 m c :=
  calc W8 m ρ c (Proc.devRef .tc main_arg15)
    _ = W7 m ρ c (Proc.devRef .tc main_arg15) := W8_of_ne m ρ c main_arg15 (by decide)
    _ = W6 m ρ c (Proc.devRef .tc main_arg15) := W7_of_ne m ρ c main_arg15 (by decide)
    _ = W5 m ρ c (Proc.devRef .tc main_arg15) := StableHlo.after_of_forall_not_mem (b := Proc.devRef .tc main_arg15) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg15) := W5_of_ne m ρ c main_arg15 (by decide)
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg15) := rfl

theorem arg16_at : W8 m ρ c (Proc.devRef .tc main_arg16) = X16 m c :=
  calc W8 m ρ c (Proc.devRef .tc main_arg16)
    _ = W7 m ρ c (Proc.devRef .tc main_arg16) := W8_of_ne m ρ c main_arg16 (by decide)
    _ = W6 m ρ c (Proc.devRef .tc main_arg16) := W7_of_ne m ρ c main_arg16 (by decide)
    _ = W5 m ρ c (Proc.devRef .tc main_arg16) := StableHlo.after_of_forall_not_mem (b := Proc.devRef .tc main_arg16) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg16) := W5_of_ne m ρ c main_arg16 (by decide)
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg16) := rfl

theorem arg17_at : W8 m ρ c (Proc.devRef .tc main_arg17) = X17 m c :=
  calc W8 m ρ c (Proc.devRef .tc main_arg17)
    _ = W7 m ρ c (Proc.devRef .tc main_arg17) := W8_of_ne m ρ c main_arg17 (by decide)
    _ = W6 m ρ c (Proc.devRef .tc main_arg17) := W7_of_ne m ρ c main_arg17 (by decide)
    _ = W5 m ρ c (Proc.devRef .tc main_arg17) := StableHlo.after_of_forall_not_mem (b := Proc.devRef .tc main_arg17) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg17) := W5_of_ne m ρ c main_arg17 (by decide)
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg17) := rfl

theorem arg18_at : W8 m ρ c (Proc.devRef .tc main_arg18) = X18 m c :=
  calc W8 m ρ c (Proc.devRef .tc main_arg18)
    _ = W7 m ρ c (Proc.devRef .tc main_arg18) := W8_of_ne m ρ c main_arg18 (by decide)
    _ = W6 m ρ c (Proc.devRef .tc main_arg18) := W7_of_ne m ρ c main_arg18 (by decide)
    _ = W5 m ρ c (Proc.devRef .tc main_arg18) := StableHlo.after_of_forall_not_mem (b := Proc.devRef .tc main_arg18) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg18) := W5_of_ne m ρ c main_arg18 (by decide)
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg18) := rfl

theorem arg19_at : W8 m ρ c (Proc.devRef .tc main_arg19) = X19 m c :=
  calc W8 m ρ c (Proc.devRef .tc main_arg19)
    _ = W7 m ρ c (Proc.devRef .tc main_arg19) := W8_of_ne m ρ c main_arg19 (by decide)
    _ = W6 m ρ c (Proc.devRef .tc main_arg19) := W7_of_ne m ρ c main_arg19 (by decide)
    _ = W5 m ρ c (Proc.devRef .tc main_arg19) := StableHlo.after_of_forall_not_mem (b := Proc.devRef .tc main_arg19) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg19) := W5_of_ne m ρ c main_arg19 (by decide)
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg19) := rfl

theorem arg20_at : W11 m ρ c (Proc.devRef .tc main_arg20) = X20 m c :=
  calc W11 m ρ c (Proc.devRef .tc main_arg20)
    _ = W10 m ρ c (Proc.devRef .tc main_arg20) := StableHlo.after_of_forall_not_mem (b := Proc.devRef .tc main_arg20) _ _ (List.forall_iff_forall_mem.mp (by
      simp only [hostOps6, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W9 m ρ c (Proc.devRef .tc main_arg20) := W10_of_ne m ρ c main_arg20 (by decide)
    _ = W8 m ρ c (Proc.devRef .tc main_arg20) := StableHlo.after_of_forall_not_mem (b := Proc.devRef .tc main_arg20) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg20) := W8_of_ne m ρ c main_arg20 (by decide)
    _ = W6 m ρ c (Proc.devRef .tc main_arg20) := W7_of_ne m ρ c main_arg20 (by decide)
    _ = W5 m ρ c (Proc.devRef .tc main_arg20) := StableHlo.after_of_forall_not_mem (b := Proc.devRef .tc main_arg20) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg20) := W5_of_ne m ρ c main_arg20 (by decide)
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg20) := rfl

theorem arg21_at : W10 m ρ c (Proc.devRef .tc main_arg21) = X21 m c :=
  calc W10 m ρ c (Proc.devRef .tc main_arg21)
    _ = W9 m ρ c (Proc.devRef .tc main_arg21) := W10_of_ne m ρ c main_arg21 (by decide)
    _ = W8 m ρ c (Proc.devRef .tc main_arg21) := StableHlo.after_of_forall_not_mem (b := Proc.devRef .tc main_arg21) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_arg21) := W8_of_ne m ρ c main_arg21 (by decide)
    _ = W6 m ρ c (Proc.devRef .tc main_arg21) := W7_of_ne m ρ c main_arg21 (by decide)
    _ = W5 m ρ c (Proc.devRef .tc main_arg21) := StableHlo.after_of_forall_not_mem (b := Proc.devRef .tc main_arg21) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_arg21) := W5_of_ne m ρ c main_arg21 (by decide)
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg21) := rfl

theorem src_keep2 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem src_keep5 : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v1) := W2_of_ne m ρ c main_v1 (by decide)

theorem src_keep8 : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := W7_of_ne m ρ c main_v1 (by decide)
    _ = W5 m ρ c (Proc.devRef .tc main_v1) := StableHlo.after_of_forall_not_mem (b := Proc.devRef .tc main_v1) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_v1) := W5_of_ne m ρ c main_v1 (by decide)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v1) := W2_of_ne m ρ c main_v1 (by decide)

theorem dst_keep2 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem dst_keep5 : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v3) := W2_of_ne m ρ c main_v3 (by decide)

theorem dst_keep8 : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := W7_of_ne m ρ c main_v3 (by decide)
    _ = W5 m ρ c (Proc.devRef .tc main_v3) := StableHlo.after_of_forall_not_mem (b := Proc.devRef .tc main_v3) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_v3) := W5_of_ne m ρ c main_v3 (by decide)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v3) := W2_of_ne m ρ c main_v3 (by decide)

theorem dinv_keep2 : W2 m ρ c (Proc.devRef .tc main_v10) = W1 m ρ c (Proc.devRef .tc main_v10) :=
  calc W2 m ρ c (Proc.devRef .tc main_v10)
    _ = W1 m ρ c (Proc.devRef .tc main_v10) := W2_of_ne m ρ c main_v10 (by decide)

theorem dinv_keep5 : W5 m ρ c (Proc.devRef .tc main_v10) = W1 m ρ c (Proc.devRef .tc main_v10) :=
  calc W5 m ρ c (Proc.devRef .tc main_v10)
    _ = W4 m ρ c (Proc.devRef .tc main_v10) := W5_of_ne m ρ c main_v10 (by decide)
    _ = W3 m ρ c (Proc.devRef .tc main_v10) := W4_of_ne m ρ c main_v10 (by decide)
    _ = W2 m ρ c (Proc.devRef .tc main_v10) := StableHlo.after_of_forall_not_mem (b := Proc.devRef .tc main_v10) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v10) := W2_of_ne m ρ c main_v10 (by decide)

theorem dinv_keep8 : W8 m ρ c (Proc.devRef .tc main_v10) = W1 m ρ c (Proc.devRef .tc main_v10) :=
  calc W8 m ρ c (Proc.devRef .tc main_v10)
    _ = W7 m ρ c (Proc.devRef .tc main_v10) := W8_of_ne m ρ c main_v10 (by decide)
    _ = W6 m ρ c (Proc.devRef .tc main_v10) := W7_of_ne m ρ c main_v10 (by decide)
    _ = W5 m ρ c (Proc.devRef .tc main_v10) := StableHlo.after_of_forall_not_mem (b := Proc.devRef .tc main_v10) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_v10) := W5_of_ne m ρ c main_v10 (by decide)
    _ = W3 m ρ c (Proc.devRef .tc main_v10) := W4_of_ne m ρ c main_v10 (by decide)
    _ = W2 m ρ c (Proc.devRef .tc main_v10) := StableHlo.after_of_forall_not_mem (b := Proc.devRef .tc main_v10) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v10) := W2_of_ne m ρ c main_v10 (by decide)

theorem dcol_keep3 : W3 m ρ c (Proc.devRef .tc main_v11) = W1 m ρ c (Proc.devRef .tc main_v11) :=
  calc W3 m ρ c (Proc.devRef .tc main_v11)
    _ = W2 m ρ c (Proc.devRef .tc main_v11) := StableHlo.after_of_forall_not_mem (b := Proc.devRef .tc main_v11) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v11) := W2_of_ne m ρ c main_v11 (by decide)

theorem dcol_keep6 : W6 m ρ c (Proc.devRef .tc main_v11) = W1 m ρ c (Proc.devRef .tc main_v11) :=
  calc W6 m ρ c (Proc.devRef .tc main_v11)
    _ = W5 m ρ c (Proc.devRef .tc main_v11) := StableHlo.after_of_forall_not_mem (b := Proc.devRef .tc main_v11) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_v11) := W5_of_ne m ρ c main_v11 (by decide)
    _ = W3 m ρ c (Proc.devRef .tc main_v11) := (W4_arr m ρ c 2).trans (((dat1 (V3 m ρ) c).arrAt_in 2 rfl _).trans (A_eq1 (V3 m ρ) c 2))
    _ = W2 m ρ c (Proc.devRef .tc main_v11) := StableHlo.after_of_forall_not_mem (b := Proc.devRef .tc main_v11) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v11) := W2_of_ne m ρ c main_v11 (by decide)

theorem dcol_keep9 : W9 m ρ c (Proc.devRef .tc main_v11) = W1 m ρ c (Proc.devRef .tc main_v11) :=
  calc W9 m ρ c (Proc.devRef .tc main_v11)
    _ = W8 m ρ c (Proc.devRef .tc main_v11) := StableHlo.after_of_forall_not_mem (b := Proc.devRef .tc main_v11) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W7 m ρ c (Proc.devRef .tc main_v11) := W8_of_ne m ρ c main_v11 (by decide)
    _ = W6 m ρ c (Proc.devRef .tc main_v11) := (W7_arr m ρ c 2).trans (((dat3 (V6 m ρ) c).arrAt_in 2 rfl _).trans (A_eq3 (V6 m ρ) c 2))
    _ = W5 m ρ c (Proc.devRef .tc main_v11) := StableHlo.after_of_forall_not_mem (b := Proc.devRef .tc main_v11) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_v11) := W5_of_ne m ρ c main_v11 (by decide)
    _ = W3 m ρ c (Proc.devRef .tc main_v11) := (W4_arr m ρ c 2).trans (((dat1 (V3 m ρ) c).arrAt_in 2 rfl _).trans (A_eq1 (V3 m ρ) c 2))
    _ = W2 m ρ c (Proc.devRef .tc main_v11) := StableHlo.after_of_forall_not_mem (b := Proc.devRef .tc main_v11) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_v11) := W2_of_ne m ρ c main_v11 (by decide)

theorem hw1_keep3 : W3 m ρ c (Proc.devRef .tc main_v12) = W2 m ρ c (Proc.devRef .tc main_v12) :=
  calc W3 m ρ c (Proc.devRef .tc main_v12)
    _ = W2 m ρ c (Proc.devRef .tc main_v12) := StableHlo.after_of_forall_not_mem (b := Proc.devRef .tc main_v12) _ _ (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem hw2_keep6 : W6 m ρ c (Proc.devRef .tc main_v47) = W5 m ρ c (Proc.devRef .tc main_v47) :=
  calc W6 m ρ c (Proc.devRef .tc main_v47)
    _ = W5 m ρ c (Proc.devRef .tc main_v47) := StableHlo.after_of_forall_not_mem (b := Proc.devRef .tc main_v47) _ _ (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem hw3_keep9 : W9 m ρ c (Proc.devRef .tc main_v82) = W8 m ρ c (Proc.devRef .tc main_v82) :=
  calc W9 m ρ c (Proc.devRef .tc main_v82)
    _ = W8 m ρ c (Proc.devRef .tc main_v82) := StableHlo.after_of_forall_not_mem (b := Proc.devRef .tc main_v82) _ _ (List.forall_iff_forall_mem.mp (by
      simp only [hostOps5, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem act3_keep11 : W11 m ρ c (Proc.devRef .tc main_v116) = W10 m ρ c (Proc.devRef .tc main_v116) :=
  calc W11 m ρ c (Proc.devRef .tc main_v116)
    _ = W10 m ρ c (Proc.devRef .tc main_v116) := StableHlo.after_of_forall_not_mem (b := Proc.devRef .tc main_v116) _ _ (List.forall_iff_forall_mem.mp (by
      simp only [hostOps6, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.Fold

end
-- ==== Proof.LibLayerSpec.lean ====
/-
  The three functions a graph-convolution network of this form is made of, as plain functions of whole arrays on
  the extended reals, entry by entry, general in the numbers of rows and columns.

  * `dense X W`: the matrix product, entry (r, j) the sum over k of X (r, k) · W (k, j).
  * `normRelu agg hw d b g be mu v`: the self-loop term, the bias, the normalization by running statistics and
    the rectifier of one convolution layer. With `d` the column of inverse square-root degrees and the five
    parameter vectors as one-row matrices, entry (r, j) is
        max (g j · ((agg (r, j) + hw (r, j) · (d r · d r) + b j) − mu j) · (v j + ε)^(-1/2) + be j) 0,
    grouped exactly so: on the extended reals sums and products are not regrouped freely.
  * `denseLogistic H W b`: the classifier, entry (r, j) the logistic function of (H · W) (r, j) + b j.
-/
import Idealize.ShloMosaic.PureOps.Ideal.Laws
import Idealize.ShloMosaic.Lib.ValueIdx

noncomputable section

namespace Cert.Layer

open Idealize.ShloMosaic Idealize.ShloMosaic.ValueIdx

/-- An array of `R` rows and `C` columns of extended reals. -/
abbrev Mat (R C : ℕ) : Type := (⟨2, ![R, C]⟩ : Shape).Idx → EReal

/-- The matrix product. -/
def dense {R K C : ℕ} (X : Mat R K) (W : Mat K C) : Mat R C :=
  fun i => ∑ k : Fin K, X (ix2 (i 0) k) * W (ix2 k (i 1))

theorem dense_apply {R K C : ℕ} (X : Mat R K) (W : Mat K C) (r : Fin R) (j : Fin C) :
    dense X W (ix2 r j) = ∑ k : Fin K, X (ix2 r k) * W (ix2 k j) := rfl

/-- One layer after the aggregation: self-loop term, bias, normalization by running statistics, rectifier. -/
def normRelu {R C : ℕ} (agg hw : Mat R C) (d : Mat R 1) (b g be mu v : Mat 1 C) : Mat R C := fun i =>
  max (g (ix2 (0 : Fin 1) (i 1)) * (agg i + hw i * (d (ix2 (i 0) (0 : Fin 1)) * d (ix2 (i 0) (0 : Fin 1))) + b (ix2 (0 : Fin 1) (i 1)) - mu (ix2 (0 : Fin 1) (i 1)))
        * Ideal.rsqrt (v (ix2 (0 : Fin 1) (i 1)) + Ideal.ofBits .f32 0x3727C5AC#32) + be (ix2 (0 : Fin 1) (i 1)))
      (Ideal.ofBits .f32 0x00000000#32)

theorem normRelu_apply {R C : ℕ} (agg hw : Mat R C) (d : Mat R 1) (b g be mu v : Mat 1 C) (r : Fin R) (j : Fin C) :
    normRelu agg hw d b g be mu v (ix2 r j)
      = max (g (ix2 (0 : Fin 1) j) * (agg (ix2 r j) + hw (ix2 r j) * (d (ix2 r (0 : Fin 1)) * d (ix2 r (0 : Fin 1))) + b (ix2 (0 : Fin 1) j) - mu (ix2 (0 : Fin 1) j))
              * Ideal.rsqrt (v (ix2 (0 : Fin 1) j) + Ideal.ofBits .f32 0x3727C5AC#32) + be (ix2 (0 : Fin 1) j))
            (Ideal.ofBits .f32 0x00000000#32) := rfl

/-- The classifier: logistic of the product plus the bias. -/
def denseLogistic {R K C : ℕ} (H : Mat R K) (W : Mat K C) (b : Mat 1 C) : Mat R C := fun i =>
  Ideal.logistic (dense H W i + b (ix2 (0 : Fin 1) (i 1)))

theorem denseLogistic_apply {R K C : ℕ} (H : Mat R K) (W : Mat K C) (b : Mat 1 C) (r : Fin R) (j : Fin C) :
    denseLogistic H W b (ix2 r j) = Ideal.logistic ((∑ k : Fin K, H (ix2 r k) * W (ix2 k j)) + b (ix2 (0 : Fin 1) j)) := rfl

/-! ## Entrywise dependence

Each function's entry at an index depends only on the entries of its operands the formula names: two
families of operands, of any extents, that agree on those entries give the same value. This is how a block of
the output computed from blocks of the operands is read as a block of the whole-array function. -/

theorem dense_congr {R K C R' C' : ℕ} (X : Mat R K) (W : Mat K C) (X' : Mat R' K) (W' : Mat K C')
    (i : (⟨2, ![R, C]⟩ : Shape).Idx) (i' : (⟨2, ![R', C']⟩ : Shape).Idx)
    (hX : ∀ k : Fin K, X (ix2 (i 0) k) = X' (ix2 (i' 0) k)) (hW : ∀ k : Fin K, W (ix2 k (i 1)) = W' (ix2 k (i' 1))) :
    dense X W i = dense X' W' i' := by
  unfold dense
  exact Finset.sum_congr rfl fun k _ => by rw [hX k, hW k]

theorem normRelu_congr {R C R' C' : ℕ} (agg hw : Mat R C) (d : Mat R 1) (b g be mu v : Mat 1 C)
    (agg' hw' : Mat R' C') (d' : Mat R' 1) (b' g' be' mu' v' : Mat 1 C')
    (i : (⟨2, ![R, C]⟩ : Shape).Idx) (i' : (⟨2, ![R', C']⟩ : Shape).Idx)
    (h0 : agg i = agg' i') (h1 : hw i = hw' i')
    (h2 : d (ix2 (i 0) (0 : Fin 1)) = d' (ix2 (i' 0) (0 : Fin 1)))
    (h3 : b (ix2 (0 : Fin 1) (i 1)) = b' (ix2 (0 : Fin 1) (i' 1))) (h4 : g (ix2 (0 : Fin 1) (i 1)) = g' (ix2 (0 : Fin 1) (i' 1)))
    (h5 : be (ix2 (0 : Fin 1) (i 1)) = be' (ix2 (0 : Fin 1) (i' 1))) (h6 : mu (ix2 (0 : Fin 1) (i 1)) = mu' (ix2 (0 : Fin 1) (i' 1)))
    (h7 : v (ix2 (0 : Fin 1) (i 1)) = v' (ix2 (0 : Fin 1) (i' 1))) :
    normRelu agg hw d b g be mu v i = normRelu agg' hw' d' b' g' be' mu' v' i' := by
  unfold normRelu
  rw [h0, h1, h2, h3, h4, h5, h6, h7]

theorem denseLogistic_congr {R K C R' C' : ℕ} (H : Mat R K) (W : Mat K C) (b : Mat 1 C) (H' : Mat R' K) (W' : Mat K C') (b' : Mat 1 C')
    (i : (⟨2, ![R, C]⟩ : Shape).Idx) (i' : (⟨2, ![R', C']⟩ : Shape).Idx)
    (hH : ∀ k : Fin K, H (ix2 (i 0) k) = H' (ix2 (i' 0) k)) (hW : ∀ k : Fin K, W (ix2 k (i 1)) = W' (ix2 k (i' 1)))
    (hb : b (ix2 (0 : Fin 1) (i 1)) = b' (ix2 (0 : Fin 1) (i' 1))) :
    denseLogistic H W b i = denseLogistic H' W' b' i' := by
  unfold denseLogistic
  rw [dense_congr H W H' W' i i' hH hW, hb]

/-! ## Equal operands -/

theorem dense_eq {R K C : ℕ} {X X' : Mat R K} {W W' : Mat K C} (hX : X = X') (hW : W = W') : dense X W = dense X' W' := by
  subst hX hW; rfl

theorem normRelu_eq {R C : ℕ} {agg agg' hw hw' : Mat R C} {d d' : Mat R 1} {b b' g g' be be' mu mu' v v' : Mat 1 C}
    (h0 : agg = agg') (h1 : hw = hw') (h2 : d = d') (h3 : b = b') (h4 : g = g') (h5 : be = be') (h6 : mu = mu') (h7 : v = v') :
    normRelu agg hw d b g be mu v = normRelu agg' hw' d' b' g' be' mu' v' := by
  subst h0 h1 h2 h3 h4 h5 h6 h7; rfl

theorem denseLogistic_eq {R K C : ℕ} {H H' : Mat R K} {W W' : Mat K C} {b b' : Mat 1 C} (hH : H = H') (hW : W = W') (hb : b = b') :
    denseLogistic H W b = denseLogistic H' W' b' := by
  subst hH hW hb; rfl

end Cert.Layer

end
-- ==== Proof.LibVec.lean ====
/-
  Reads of vector operations at an index, at the ideal values (floats are extended reals), for
  arrays of `a` rows: general in the row count and program-free.

  * a length-`a` vector cast to a column `[a, 1]`, and a column broadcast along the rows to `[a, b]`
    (the two keepdims forms a row statistic goes through): `colCast_apply`, `colBroadcast_apply`;
  * a length-`b` vector cast to `[1, b]` and broadcast down the rows: `rowBroadcast_apply`;
  * the sum along the lanes of an `[a, b]` array at row `r` is `∑ k, x (r, k)`: `laneSum_apply`;
  * a matrix product into a zero accumulator at `(r, j)` is `∑ k, X (r, k) * Y (k, j)`, for any
    dimension-numbers record whose operand indices are the plain ones: `matmul_rowcol`;
  * `rsqrt_apply`, the pointwise read the library does not state.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibVec

open Idealize.ShloMosaic Idealize.ShloMosaic.ValueIdx

variable {α : Type}

/-- A length-`a` vector cast to the column `[a, 1]` reads, at `(r, u)`, the vector at `r`. -/
theorem colCast_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at `r`. -/
theorem colBroadcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A length-`b` vector cast to `[1, b]` and broadcast down `a` rows reads, at `(r, c)`, the vector at `c`. -/
theorem rowBroadcast_apply {a b : ℕ} (g : (⟨1, ![b]⟩ : Shape).Idx → α) (h1 : (⟨1, ![b]⟩ : Shape).ShapeCasts ⟨2, ![1, b]⟩)
    (h2 : (⟨2, ![1, b]⟩ : Shape).Broadcasts ⟨2, ![a, b]⟩) (r : Fin a) (c : Fin b) :
    broadcastTo ⟨2, ![a, b]⟩ (shapeCast ⟨2, ![1, b]⟩ g h1) h2 (ix2 r c) = g (ix1 c) := by
  rw [broadcastTo_1b_ab_apply, shapeCast_a_1a_apply]

/-- The sum along the lanes of an `[a, b]` array, at row `r`, is the sum of that row's entries. -/
theorem laneSum_apply {a b : ℕ} {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ x acc h hφ hacc (ix1 r) = ∑ k : Fin b, x (ix2 r k) := by
  rw [Ideal.multiReduction_add_single]
  refine Finset.sum_congr rfl fun k _ => congrArg x (funext fun ax => Fin.ext ?_)
  match ax with
  | ⟨0, _⟩ => rfl
  | ⟨1, _⟩ => rfl

/-- The same for an f32 array summed from the zero word, with the neutrality proof spelt as a printed program spells it. -/
theorem laneSum_f32_apply {a b : ℕ} (x : FVec Ideal ⟨2, ![a, b]⟩ .f32)
    (h : (⟨2, ![a, b]⟩ : Shape).Reduces [1] ⟨1, ![a]⟩) (hacc : (0x00000000#32 : BitVec 32) = 0x00000000#32) (r : Fin a) :
    multiReduction .add [1] ⟨1, ![a]⟩ x 0x00000000#32 h (.inl rfl) hacc (ix1 r) = ∑ k : Fin b, x (ix2 r k) :=
  laneSum_apply x _ h (.inl rfl) hacc r

/-- `rsqrt` of an array reads entry by entry. -/
theorem rsqrt_apply {s : Shape} {φ : FTy} (x : FVec Ideal s φ) (i : s.Idx) : rsqrt x i = Ideal.rsqrt (x i) := rfl

/-- A matrix product `X · Y` into a zero accumulator, at `(r, j)`, is `∑ k, X (r, k) * Y (k, j)`, for a
    dimension-numbers record with one contracted axis of extent `K` whose operand indices are the plain
    ones (row of the output and contraction index on the left; contraction index and column on the right). -/
theorem matmul_rowcol {n K m : ℕ} {φ₁ φ₂ : FTy} (d : DotDims ⟨2, ![n, K]⟩ ⟨2, ![K, m]⟩ ⟨2, ![n, m]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (X : FVec Ideal ⟨2, ![n, K]⟩ φ₁) (Y : FVec Ideal ⟨2, ![K, m]⟩ φ₂) (r : Fin n) (j : Fin m) :
    matmul d prec X Y (constant ⟨2, ![n, m]⟩ .f32 0x00000000#32) (ix2 r j) = ∑ k : Fin K, X (ix2 r k) * Y (ix2 k j) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 r j) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r j) ((contrEquiv1 d K hr hs).symm k) = ix2 k j := funext fun ax => Fin.ext (by
    match ax with
    | ⟨0, _⟩ => exact (hr0 _ _).trans hk
    | ⟨1, _⟩ => exact hr1 _ _)
  rw [el, er]

end Cert.LibVec

end
-- ==== Proof.LibBiasRows.lean ====
/-
  A vector as a one-row matrix: the bias of a dense layer.

  A bias vector of length C enters a dense layer as the one-row matrix [1, C], either by a reshape or by a broadcast
  that is then broadcast again over the R rows of the layer's output. Read at an entry, both are the vector at the
  entry's column.
-/
import Idealize.ShloMosaic.Lib.ValueIdx
import Idealize.ShloMosaic.Lib.Pipeline.Value

noncomputable section

namespace Cert.Lib.BiasRows

open Idealize.ShloMosaic Idealize.ShloMosaic.ValueIdx

/-- The row coordinate of an index of a two-axis array, at its literal extent. -/
abbrev rowOf {R C : Nat} (i : (⟨2, ![R, C]⟩ : Shape).Idx) : Fin R := ⟨(i 0).val, (i 0).isLt⟩
/-- The column coordinate of an index of a two-axis array, at its literal extent. -/
abbrev colOf {R C : Nat} (i : (⟨2, ![R, C]⟩ : Shape).Idx) : Fin C := ⟨(i 1).val, (i 1).isLt⟩

/-- A vector as a one-row matrix. -/
def asRow {α : Type} {C : Nat} (b : (⟨1, ![C]⟩ : Shape).Idx → α) : (⟨2, ![1, C]⟩ : Shape).Idx → α :=
  fun i => b (ix1 (colOf i))

/-- Reshaping a vector of length C to [1, C] gives that one-row matrix. -/
theorem reshape_row {α : Type} {C : Nat} (b : (⟨1, ![C]⟩ : Shape).Idx → α) (h : (⟨1, ![C]⟩ : Shape).ShapeCasts ⟨2, ![1, C]⟩) :
    shapeCast ⟨2, ![1, C]⟩ b h = asRow b :=
  funext fun i => (shapeCast_addUnit_apply ![C] b h i).trans (congrArg b (funext fun a => by
    match a with
    | ⟨0, _⟩ => rfl))

/-- A vector broadcast to one row and then over R rows, read at (p, q), is the vector at q. -/
theorem bias_rows {α : Type} {R C : Nat} (b : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 b) (ix2 p q) = asRow b (ix2 (0 : Fin 1) q) := by
  have hq : q.val < C := q.isLt
  rw [broadcastInDim_apply ![0, 1] h2 _ (ix2 p q) (ix2 (0 : Fin 1) q) (fun a => by
    match a with
    | ⟨0, _⟩ => show 0 = if (1 : Nat) = 1 then 0 else p.val; rw [if_pos rfl]
    | ⟨1, _⟩ => show q.val = if C = 1 then 0 else q.val; split_ifs <;> omega)]
  rw [broadcastInDim_apply ![1] h1 b (ix2 (0 : Fin 1) q) (ix1 q) (fun a => by
    match a with
    | ⟨0, _⟩ => show q.val = if C = 1 then 0 else q.val; split_ifs <;> omega)]
  rfl

end Cert.Lib.BiasRows

end
-- ==== Proof.LibLayerOps.lean ====
/-
  The three layer functions of LayerSpec as whole-array compositions of vector operations, at the ideal values
  (floats are extended reals), general in the numbers of rows and columns and program-free.

  Each function is met in two spellings. A kernel body spells it over one block with `vector.broadcast`
  of a column [R, 1] and of a one-row matrix [1, C], a scalar splat for a literal, `tpu.matmul` into a zero
  accumulator after a change of float format (the identity here) and `tpu.logistic`. A host program spells
  it over the whole array with `broadcast_in_dim` of a vector to a column or a row and then to the full
  array, of a rank-0 constant for a literal, `dot_general`, and the logistic function written out as
  1 / (1 + exp (−z)). Read at an entry (r, j) all of these are the same expressions in the entries:
  `normRelu_vec` / `normRelu_host`, `dense_vec` / `dense_host`, `denseLogistic_vec` / `logistic_host`.
-/
import Idealize.ShloMosaic.PureOps.Ideal.Laws
import Idealize.ShloMosaic.Lib.ValueIdx
import Idealize.ShloMosaic.Lib.ValueLayout
import Idealize.ShloMosaic.Lib.Pipeline.Value
import proofs.«153155_j71640054497345_1_alg».proof.Proof.LibLayerSpec
import proofs.«153155_j71640054497345_1_alg».proof.Proof.LibVec
import proofs.«153155_j71640054497345_1_alg».proof.Proof.LibBiasRows

noncomputable section

namespace Cert.LayerOps

open Idealize.ShloMosaic Idealize.ShloMosaic.ValueIdx Cert.Layer

/-- The word of the float 1.0 denotes the real number 1. -/
theorem ofBits_one : Ideal.ofBits .f32 0x3F800000#32 = 1 := by
  simp [Ideal.ofBits, Ideal.ieee, -EReal.coe_mul]; norm_num

/-- A rank-0 constant broadcast to any shape reads the constant's value everywhere. -/
theorem splat_apply {t : Shape} (w : BitVec 32) (h : (⟨0, ![]⟩ : Shape).BroadcastsInDim t ![]) (j : t.Idx) :
    broadcastInDim t ![] h (constant (F := Ideal) ⟨0, ![]⟩ .f32 w) j = Ideal.ofBits .f32 w :=
  broadcastInDim_apply ![] h _ j ix0 (fun a => a.elim0)

/-- A vector of length `R` broadcast to the column [R, 1] and then along the rows to [R, C] reads, at (r, j),
    the vector at r. -/
theorem column_rows {α : Type} {R C : ℕ} (y : (⟨1, ![R]⟩ : Shape).Idx → α)
    (h1 : (⟨1, ![R]⟩ : Shape).BroadcastsInDim ⟨2, ![R, 1]⟩ ![0]) (h2 : (⟨2, ![R, 1]⟩ : Shape).BroadcastsInDim ⟨2, ![R, C]⟩ ![0, 1])
    (r : Fin R) (j : Fin C) :
    broadcastInDim ⟨2, ![R, C]⟩ ![0, 1] h2 (broadcastInDim ⟨2, ![R, 1]⟩ ![0] h1 y) (ix2 r j) = y (ix1 r) := by
  have hr : r.val < R := r.isLt
  rw [broadcastInDim_apply ![0, 1] h2 _ (ix2 r j) (ix2 r (0 : Fin 1)) (fun a => by
    match a with
    | ⟨0, _⟩ => show r.val = if R = 1 then 0 else r.val; split_ifs <;> omega
    | ⟨1, _⟩ => show 0 = if (1 : Nat) = 1 then 0 else j.val; rw [if_pos rfl])]
  rw [broadcastInDim_apply ![0] h1 y (ix2 r (0 : Fin 1)) (ix1 r) (fun a => by
    match a with
    | ⟨0, _⟩ => show r.val = if R = 1 then 0 else r.val; split_ifs <;> omega)]

/-- A vector of length `C` broadcast to the one-row matrix [1, C] and then down the rows to [R, C] reads, at (r, j),
    the vector at j. -/
theorem row_rows {α : Type} {R C : ℕ} (y : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (r : Fin R) (j : Fin C) :
    broadcastInDim ⟨2, ![R, C]⟩ ![0, 1] h2 (broadcastInDim ⟨2, ![1, C]⟩ ![1] h1 y) (ix2 r j) = y (ix1 j) :=
  (Cert.Lib.BiasRows.bias_rows y h1 h2 r j).trans rfl

/-! ## Normalization and rectifier -/

/-- The kernel's spelling over a block of `R` rows. -/
theorem normRelu_vec {R C : ℕ} (agg hw : Mat R C) (d : Mat R 1) (b g be mu v : Mat 1 C)
    (c1 : (⟨2, ![R, 1]⟩ : Shape).ShapeCasts ⟨2, ![R, 1]⟩) (c2 : (⟨2, ![R, C]⟩ : Shape).ShapeCasts ⟨2, ![R, C]⟩)
    (c3 : (⟨2, ![1, C]⟩ : Shape).ShapeCasts ⟨2, ![1, C]⟩)
    (b1 : (⟨2, ![R, 1]⟩ : Shape).Broadcasts ⟨2, ![R, C]⟩) (b2 : (⟨2, ![1, C]⟩ : Shape).Broadcasts ⟨2, ![R, C]⟩) :
    (maximumf (addf (mulf (mulf (broadcastTo ⟨2, ![R, C]⟩ (shapeCast ⟨2, ![1, C]⟩ g c3) b2)
          (subf (addf (addf (shapeCast ⟨2, ![R, C]⟩ agg c2)
                  (mulf (shapeCast ⟨2, ![R, C]⟩ hw c2) (broadcastTo ⟨2, ![R, C]⟩ (mulf (shapeCast ⟨2, ![R, 1]⟩ d c1) (shapeCast ⟨2, ![R, 1]⟩ d c1)) b1)))
                (broadcastTo ⟨2, ![R, C]⟩ (shapeCast ⟨2, ![1, C]⟩ b c3) b2))
            (broadcastTo ⟨2, ![R, C]⟩ (shapeCast ⟨2, ![1, C]⟩ mu c3) b2)))
          (broadcastTo ⟨2, ![R, C]⟩ (rsqrt (addf (shapeCast ⟨2, ![1, C]⟩ v c3) (broadcast ⟨2, ![1, C]⟩ (Scalar.ofBits .f32 0x3727C5AC#32)))) b2))
        (broadcastTo ⟨2, ![R, C]⟩ (shapeCast ⟨2, ![1, C]⟩ be c3) b2))
      (broadcast ⟨2, ![R, C]⟩ (Scalar.ofBits .f32 0x00000000#32)) : FVec Ideal ⟨2, ![R, C]⟩ .f32)
    = normRelu agg hw d b g be mu v := by
  funext i
  obtain ⟨r, j, rfl⟩ : ∃ (r : Fin R) (j : Fin C), i = ix2 r j := ⟨i 0, i 1, eq_ix2 i⟩
  rw [normRelu_apply]
  simp only [shapeCast_self]
  simp only [maximumf_apply, addf_apply, mulf_apply, subf_apply, broadcast_apply, broadcastTo_1b_ab_apply,
    Cert.LibVec.colBroadcast_apply, Cert.LibVec.rsqrt_apply]
  rfl

/-- The host's spelling over the whole array: the degree vector and the five parameter vectors enter by two
    broadcasts each; the array's column and one-row forms of those vectors are their reshapes. -/
theorem normRelu_host {R C : ℕ} (agg hw : Mat R C) (dv : (⟨1, ![R]⟩ : Shape).Idx → EReal)
    (b g be mu v : (⟨1, ![C]⟩ : Shape).Idx → EReal)
    (hd1 : (⟨1, ![R]⟩ : Shape).BroadcastsInDim ⟨2, ![R, 1]⟩ ![0]) (hd2 : (⟨2, ![R, 1]⟩ : Shape).BroadcastsInDim ⟨2, ![R, C]⟩ ![0, 1])
    (hp1 : (⟨1, ![C]⟩ : Shape).BroadcastsInDim ⟨2, ![1, C]⟩ ![1]) (hp2 : (⟨2, ![1, C]⟩ : Shape).BroadcastsInDim ⟨2, ![R, C]⟩ ![0, 1])
    (he : (⟨0, ![]⟩ : Shape).BroadcastsInDim ⟨1, ![C]⟩ ![]) (hz : (⟨0, ![]⟩ : Shape).BroadcastsInDim ⟨2, ![R, C]⟩ ![])
    (cd : (⟨1, ![R]⟩ : Shape).ShapeCasts ⟨2, ![R, 1]⟩) (cp : (⟨1, ![C]⟩ : Shape).ShapeCasts ⟨2, ![1, C]⟩) :
    (maximumf (addf (mulf (mulf (broadcastInDim ⟨2, ![R, C]⟩ ![0, 1] hp2 (broadcastInDim ⟨2, ![1, C]⟩ ![1] hp1 g))
          (subf (addf (addf agg
                  (mulf hw (broadcastInDim ⟨2, ![R, C]⟩ ![0, 1] hd2 (broadcastInDim ⟨2, ![R, 1]⟩ ![0] hd1 (mulf dv dv)))))
                (broadcastInDim ⟨2, ![R, C]⟩ ![0, 1] hp2 (broadcastInDim ⟨2, ![1, C]⟩ ![1] hp1 b)))
            (broadcastInDim ⟨2, ![R, C]⟩ ![0, 1] hp2 (broadcastInDim ⟨2, ![1, C]⟩ ![1] hp1 mu))))
          (broadcastInDim ⟨2, ![R, C]⟩ ![0, 1] hp2 (broadcastInDim ⟨2, ![1, C]⟩ ![1] hp1
            (Host.rsqrt (addf v (broadcastInDim ⟨1, ![C]⟩ ![] he (constant ⟨0, ![]⟩ .f32 0x3727C5AC#32)))))))
        (broadcastInDim ⟨2, ![R, C]⟩ ![0, 1] hp2 (broadcastInDim ⟨2, ![1, C]⟩ ![1] hp1 be)))
      (broadcastInDim ⟨2, ![R, C]⟩ ![] hz (constant ⟨0, ![]⟩ .f32 0x00000000#32)) : FVec Ideal ⟨2, ![R, C]⟩ .f32)
    = normRelu agg hw (shapeCast ⟨2, ![R, 1]⟩ dv cd) (shapeCast ⟨2, ![1, C]⟩ b cp) (shapeCast ⟨2, ![1, C]⟩ g cp)
        (shapeCast ⟨2, ![1, C]⟩ be cp) (shapeCast ⟨2, ![1, C]⟩ mu cp) (shapeCast ⟨2, ![1, C]⟩ v cp) := by
  funext i
  obtain ⟨r, j, rfl⟩ : ∃ (r : Fin R) (j : Fin C), i = ix2 r j := ⟨i 0, i 1, eq_ix2 i⟩
  rw [normRelu_apply]
  simp only [maximumf_apply, addf_apply, mulf_apply, subf_apply]
  rw [row_rows g hp1 hp2 r j, row_rows b hp1 hp2 r j, row_rows mu hp1 hp2 r j, row_rows be hp1 hp2 r j,
    row_rows (Host.rsqrt _) hp1 hp2 r j, column_rows _ hd1 hd2 r j, splat_apply _ hz (ix2 r j),
    Cert.LibVec.colCast_apply dv cd r (0 : Fin 1), shapeCast_a_1a_apply b cp (0 : Fin 1) j, shapeCast_a_1a_apply g cp (0 : Fin 1) j,
    shapeCast_a_1a_apply be cp (0 : Fin 1) j, shapeCast_a_1a_apply mu cp (0 : Fin 1) j, shapeCast_a_1a_apply v cp (0 : Fin 1) j]
  simp only [Host.rsqrt, addf_apply, mulf_apply]
  rw [splat_apply _ he (ix1 j)]
  rfl

/-! ## The matrix product -/

/-- The kernel's spelling: both operands change float format (the identity here), the accumulator is zero. -/
theorem dense_vec {n K m : ℕ} {ψ : FTy} (d : DotDims ⟨2, ![n, K]⟩ ⟨2, ![K, m]⟩ ⟨2, ![n, m]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (hψ : ψ.bits < FTy.f32.bits) (X : Mat n K) (Y : Mat K m) :
    matmul d none (truncf (F := Ideal) (φ := .f32) ψ X hψ) (truncf (F := Ideal) (φ := .f32) ψ Y hψ) (constant ⟨2, ![n, m]⟩ .f32 0x00000000#32)
      = dense X Y := by
  funext i
  obtain ⟨r, j, rfl⟩ : ∃ (r : Fin n) (j : Fin m), i = ix2 r j := ⟨i 0, i 1, eq_ix2 i⟩
  rw [Cert.LibVec.matmul_rowcol d hr hs hl0 hl1 hr0 hr1, dense_apply]
  rfl

/-- The host's spelling. -/
theorem dense_host {n K m : ℕ} (d : DotDims ⟨2, ![n, K]⟩ ⟨2, ![K, m]⟩ ⟨2, ![n, m]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (X : Mat n K) (Y : Mat K m) :
    (Host.dotGeneral (F := Ideal) (φ₁ := .f32) (φ₂ := .f32) d none X Y : FVec Ideal ⟨2, ![n, m]⟩ .f32) = dense X Y := by
  funext i
  obtain ⟨r, j, rfl⟩ : ∃ (r : Fin n) (j : Fin m), i = ix2 r j := ⟨i 0, i 1, eq_ix2 i⟩
  simp only [Host.dotGeneral]
  rw [Ideal.dotGeneral_apply, ← Equiv.sum_comp (contrEquiv1 d K hr hs).symm, dense_apply]
  refine Finset.sum_congr rfl fun k _ => ?_
  have hk := contrEquiv1_symm_val d K hr hs k
  have el : d.lhsIdx (ix2 r j) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r j) ((contrEquiv1 d K hr hs).symm k) = ix2 k j := funext fun ax => Fin.ext (by
    match ax with
    | ⟨0, _⟩ => exact (hr0 _ _).trans hk
    | ⟨1, _⟩ => exact hr1 _ _)
  rw [el, er]

/-! ## The classifier -/

/-- The kernel's spelling: product, bias row broadcast down the block, logistic. -/
theorem denseLogistic_vec {n K m : ℕ} {ψ : FTy} (d : DotDims ⟨2, ![n, K]⟩ ⟨2, ![K, m]⟩ ⟨2, ![n, m]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (hψ : ψ.bits < FTy.f32.bits) (H : Mat n K) (W : Mat K m) (b : Mat 1 m)
    (c1 : (⟨2, ![n, K]⟩ : Shape).ShapeCasts ⟨2, ![n, K]⟩) (c3 : (⟨2, ![1, m]⟩ : Shape).ShapeCasts ⟨2, ![1, m]⟩)
    (b2 : (⟨2, ![1, m]⟩ : Shape).Broadcasts ⟨2, ![n, m]⟩) :
    (logistic (addf (matmul d none (truncf (F := Ideal) (φ := .f32) ψ (shapeCast ⟨2, ![n, K]⟩ H c1) hψ) (truncf (F := Ideal) (φ := .f32) ψ W hψ)
          (constant ⟨2, ![n, m]⟩ .f32 0x00000000#32))
        (broadcastTo ⟨2, ![n, m]⟩ (shapeCast ⟨2, ![1, m]⟩ b c3) b2)) : FVec Ideal ⟨2, ![n, m]⟩ .f32)
      = denseLogistic H W b := by
  funext i
  obtain ⟨r, j, rfl⟩ : ∃ (r : Fin n) (j : Fin m), i = ix2 r j := ⟨i 0, i 1, eq_ix2 i⟩
  rw [denseLogistic_apply]
  simp only [shapeCast_self]
  simp only [logistic, addf_apply, Ideal.logistic_def]
  rw [Cert.LibVec.matmul_rowcol d hr hs hl0 hl1 hr0 hr1, broadcastTo_1b_ab_apply]
  rfl

/-- The host's spelling of the logistic of `z` plus a bias vector: 1 / (1 + exp (−(z + b))). -/
theorem logistic_host {R C : ℕ} (z : Mat R C) (bv : (⟨1, ![C]⟩ : Shape).Idx → EReal)
    (hp1 : (⟨1, ![C]⟩ : Shape).BroadcastsInDim ⟨2, ![1, C]⟩ ![1]) (hp2 : (⟨2, ![1, C]⟩ : Shape).BroadcastsInDim ⟨2, ![R, C]⟩ ![0, 1])
    (ho : (⟨0, ![]⟩ : Shape).BroadcastsInDim ⟨2, ![R, C]⟩ ![]) (cp : (⟨1, ![C]⟩ : Shape).ShapeCasts ⟨2, ![1, C]⟩) :
    (Host.divf (broadcastInDim ⟨2, ![R, C]⟩ ![] ho (constant ⟨0, ![]⟩ .f32 0x3F800000#32))
        (addf (broadcastInDim ⟨2, ![R, C]⟩ ![] ho (constant ⟨0, ![]⟩ .f32 0x3F800000#32))
          (Host.exp (Host.negf (addf z (broadcastInDim ⟨2, ![R, C]⟩ ![0, 1] hp2 (broadcastInDim ⟨2, ![1, C]⟩ ![1] hp1 bv)))))) : FVec Ideal ⟨2, ![R, C]⟩ .f32)
      = fun i => Ideal.logistic (z i + shapeCast ⟨2, ![1, C]⟩ bv cp (ix2 (0 : Fin 1) (i 1))) := by
  funext i
  obtain ⟨r, j, rfl⟩ : ∃ (r : Fin R) (j : Fin C), i = ix2 r j := ⟨i 0, i 1, eq_ix2 i⟩
  show _ = Ideal.logistic (z (ix2 r j) + shapeCast ⟨2, ![1, C]⟩ bv cp (ix2 (0 : Fin 1) j))
  simp only [Host.divf, Host.exp, Host.negf, addf_apply, Ideal.hostDivf_def, Ideal.hostUnary_exp_def, Ideal.hostNegf_def, Ideal.negf_def]
  rw [splat_apply _ ho (ix2 r j), ofBits_one, row_rows bv hp1 hp2 r j, shapeCast_a_1a_apply bv cp (0 : Fin 1) j]
  rfl

end Cert.LayerOps

end
-- ==== Proof.Region0.lean ====
/-
  Region 0: a matrix product, over 20 blocks of 5000 rows.

  Each grid point loads a block of 5000 rows of the left operand and the right operand whole, and stores their
  product (the change of float format before the product is the identity on the extended reals, and the
  accumulator starts at zero). An entry (r, j) of a product depends only on row r of the left operand and column
  j of the right, so the block a point stores is that block of the product of the whole arrays; the 20 blocks
  tile the rows, so the output array ends as the product of the arrays the region found.
-/
import proofs.«153155_j71640054497345_1_alg».proof.Proof.Gen.KernelIdeal.Frame
import proofs.«153155_j71640054497345_1_alg».proof.Proof.LibLayerOps

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.Layer

variable (V : (c : Dev nD) → (b : Ref sig .tc) → Buf (Elt Ideal) ((c : Thread nD τ).loc b))

theorem zero_offsets : (![0, 0] : Fin 2 → Nat) = fun _ => 0 := funext fun a => by fin_cases a <;> rfl

local notation "dd" => dot_S5000x128_S128x64_S5000x64_1_0_0_1_n_n

theorem dims_lhs0 (i : S5000x64.Idx) (q : (dot_S5000x128_S128x64_S5000x64_1_0_0_1_n_n).contr.Idx) : ((dot_S5000x128_S128x64_S5000x64_1_0_0_1_n_n).lhsIdx i q 0).val = (i 0).val := by
  unfold DotDims.lhsIdx
  rw [dif_neg (show ¬(0 : Fin S5000x128.rank) ∈ (dot_S5000x128_S128x64_S5000x64_1_0_0_1_n_n).lhsBatch by decide), dif_pos (show (0 : Fin S5000x128.rank) ∈ (dot_S5000x128_S128x64_S5000x64_1_0_0_1_n_n).lhsNonContracting by decide)]
  rfl
theorem dims_lhs1 (i : S5000x64.Idx) (q : (dot_S5000x128_S128x64_S5000x64_1_0_0_1_n_n).contr.Idx) : ((dot_S5000x128_S128x64_S5000x64_1_0_0_1_n_n).lhsIdx i q 1).val = (q ⟨0, by decide⟩).val :=
  (dot_S5000x128_S128x64_S5000x64_1_0_0_1_n_n).lhsIdx_val_of_single rfl i q
theorem dims_rhs0 (i : S5000x64.Idx) (q : (dot_S5000x128_S128x64_S5000x64_1_0_0_1_n_n).contr.Idx) : ((dot_S5000x128_S128x64_S5000x64_1_0_0_1_n_n).rhsIdx i q 0).val = (q ⟨0, by decide⟩).val :=
  (dot_S5000x128_S128x64_S5000x64_1_0_0_1_n_n).rhsIdx_val_of_single rfl i q
theorem dims_rhs1 (i : S5000x64.Idx) (q : (dot_S5000x128_S128x64_S5000x64_1_0_0_1_n_n).contr.Idx) : ((dot_S5000x128_S128x64_S5000x64_1_0_0_1_n_n).rhsIdx i q 1).val = (i 1).val := by
  unfold DotDims.rhsIdx
  rw [dif_neg (show ¬(1 : Fin S128x64.rank) ∈ (dot_S5000x128_S128x64_S5000x64_1_0_0_1_n_n).rhsBatch by decide), dif_pos (show (1 : Fin S128x64.rank) ∈ (dot_S5000x128_S128x64_S5000x64_1_0_0_1_n_n).rhsNonContracting by decide)]
  rfl

/-- The body's arithmetic on its loaded blocks is the matrix product at the block's extents. -/
theorem payload (x : Vec Ideal S5000x128 .f32) (w : Vec Ideal S128x64 .f32) : k0_pay1 (F := Ideal) x w = dense x w := by
  unfold k0_pay1
  exact Cert.LayerOps.dense_vec dot_S5000x128_S128x64_S5000x64_1_0_0_1_n_n rfl rfl dims_lhs0 dims_lhs1 dims_rhs0 dims_rhs1 _ x w

/-- The index maps over the grid: the left operand moves with the output, block t at row-block t; the right
    operand stays at its one block. -/
theorem index_maps : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0 ∧ win0_2.index t (1 : Fin 2) = 0 :=
  (by decide +kernel : ∀ t : Fin grid0.N, _)

/-- Every row-block is some point's. -/
theorem index_onto : ∀ q : Fin 20, ∃ t : Fin cfg0.N, win0_2.index t = ![q.val, 0] :=
  (by decide +kernel : ∀ q : Fin 20, ∃ t : Fin grid0.N, win0_2.index t = ![q.val, 0])

/-- An entry of the block point t computes is the product of the whole arrays at that entry's place. -/
theorem block_entry (c : Dev nD) (t : Fin cfg0.N) (j : S5000x64.Idx) :
    dense (iblk0 V c 0 t) (iblk0 V c 1 t) j = dense (V c main_arg0) (V c main_arg2) (((cfg0.win 2).blk t).view.emb j) := by
  obtain ⟨e0a, e0b, e1a, e1b, e2b⟩ := index_maps t
  have hX : ∀ k : Fin 128, iblk0 V c 0 t (ix2 (j 0) k) = V c main_arg0 (ix2 ((((cfg0.win 2).blk t).view.emb j) 0) k) := fun k => by
    show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hW : ∀ k : Fin 128, iblk0 V c 1 t (ix2 k (j 1)) = V c main_arg2 (ix2 k ((((cfg0.win 2).blk t).view.emb j) 1)) := fun k => by
    show V c main_arg2 (((cfg0.win 1).blk t).view.emb (ix2 k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  exact dense_congr _ _ _ _ j (((cfg0.win 2).blk t).view.emb j) hX hW

/-- What point t writes back is block t of the product of the arrays the region found. -/
theorem flushed_eq (c : Dev nD) (t : Fin cfg0.N) :
    (dat0 (F := Ideal) V c).flushed 2 t = ((cfg0.win 2).blk t).view.read (Elt Ideal) (dense (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x64) zero_offsets]
  rw [payload]
  funext j
  exact block_entry V c t j

/-- An index of the output array is in point t's block iff each coordinate is in the block's range. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v12).slice (win0_2.rect t)).set ↔ _
  rw [View.set_slice_whole, Rect.mem_set_unit]
  exact Iff.rfl

/-- The blocks tile the array: row r is in the block of point r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the product of the arrays the region found. -/
theorem array (c : Dev nD) : (dat0 (F := Ideal) V c).arrAt 2 cfg0.N = dense (V c main_arg0) (V c main_arg2) :=
  (dat0 (F := Ideal) V c).arrAt_eq_of_cover 2 _ (fun t _ => flushed_eq V c t) (cover)

end Cert.KernelIdeal.Region0

end
-- ==== Proof.Region1.lean ====
/-
  Region 1: the self-loop term, bias, normalization and rectifier of one layer, over 20 blocks of 5000 rows.

  Each grid point loads a block of 5000 rows of the aggregate and of the transformed features, the matching
  5000 entries of the column of inverse square-root degrees, and the five one-row parameter matrices whole;
  it stores the layer function of those blocks. Since an entry of the layer function depends only on its own
  row of the arrays and its own column of the parameters, the block a point stores is that block of the layer
  function of the whole arrays; the 20 blocks tile the rows, so the output array ends as the layer function
  of the arrays the region found.
-/
import proofs.«153155_j71640054497345_1_alg».proof.Proof.Gen.KernelIdeal.Frame
import proofs.«153155_j71640054497345_1_alg».proof.Proof.LibLayerOps

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.Layer

variable (V : (c : Dev nD) → (b : Ref sig .tc) → Buf (Elt Ideal) ((c : Thread nD τ).loc b))

theorem zero_offsets : (![0, 0] : Fin 2 → Nat) = fun _ => 0 := funext fun a => by fin_cases a <;> rfl

/-- The body's arithmetic on its loaded blocks is the layer function at the block's extents. -/
theorem payload (d : Vec Ideal S5000x1 .f32) (a h : Vec Ideal S5000x64 .f32) (b g mu v be : Vec Ideal S1x64 .f32) :
    k1_pay1 (F := Ideal) d a h b g mu v be = normRelu a h d b g be mu v := by
  unfold k1_pay1
  exact Cert.LayerOps.normRelu_vec a h d b g be mu v _ _ _ _ _

/-- The index maps over the grid: the three row-blocked inputs move with the output, block t at row-block t of
    the one column-block; the parameter rows stay at their one block. -/
theorem index_maps : ∀ t : Fin cfg1.N,
    win1_0.index t (0 : Fin 2) = win1_8.index t (0 : Fin 2) ∧ win1_0.index t (1 : Fin 2) = 0
    ∧ win1_1.index t (0 : Fin 2) = win1_8.index t (0 : Fin 2) ∧ win1_1.index t (1 : Fin 2) = 0
    ∧ win1_2.index t (0 : Fin 2) = win1_8.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (1 : Fin 2) = 0 :=
  (by decide +kernel : ∀ t : Fin grid1.N, _)

/-- Every row-block is some point's. -/
theorem index_onto : ∀ q : Fin 20, ∃ t : Fin cfg1.N, win1_8.index t = ![q.val, 0] :=
  (by decide +kernel : ∀ q : Fin 20, ∃ t : Fin grid1.N, win1_8.index t = ![q.val, 0])

/-- An entry of the block point t computes is the layer function of the whole arrays at that entry's place. -/
theorem block_entry (c : Dev nD) (t : Fin cfg1.N) (j : S5000x64.Idx) :
    normRelu (iblk1 V c 0 t) (iblk1 V c 1 t) (iblk1 V c 2 t) (iblk1 V c 3 t) (iblk1 V c 4 t) (iblk1 V c 5 t) (iblk1 V c 6 t) (iblk1 V c 7 t) j
      = normRelu (V c main_v40) (V c main_v12) (V c main_v11) (V c main_v41) (V c main_v42) (V c main_v43) (V c main_v44) (V c main_v45) (((cfg1.win 8).blk t).view.emb j) := by
  obtain ⟨e0a, e0b, e1a, e1b, e2a, e2b, e3a, e3b, e4a, e4b, e5a, e5b, e6a, e6b, e7a, e7b, e8b⟩ := index_maps t
  have r0 : iblk1 V c 0 t j = V c main_v40 (((cfg1.win 8).blk t).view.emb j) := by
    show V c main_v40 (((cfg1.win 0).blk t).view.emb j) = _
    refine congrArg (V c main_v40) (funext fun a => Fin.ext ?_)
    match a with
    | ⟨0, _⟩ => show win1_0.index t (0 : Fin 2) * 5000 + 1 * (j 0).val = win1_8.index t (0 : Fin 2) * 5000 + 1 * (j 0).val; omega
    | ⟨1, _⟩ => show win1_0.index t (1 : Fin 2) * 64 + 1 * (j 1).val = win1_8.index t (1 : Fin 2) * 64 + 1 * (j 1).val; omega
  have r1 : iblk1 V c 1 t j = V c main_v12 (((cfg1.win 8).blk t).view.emb j) := by
    show V c main_v12 (((cfg1.win 1).blk t).view.emb j) = _
    refine congrArg (V c main_v12) (funext fun a => Fin.ext ?_)
    match a with
    | ⟨0, _⟩ => show win1_1.index t (0 : Fin 2) * 5000 + 1 * (j 0).val = win1_8.index t (0 : Fin 2) * 5000 + 1 * (j 0).val; omega
    | ⟨1, _⟩ => show win1_1.index t (1 : Fin 2) * 64 + 1 * (j 1).val = win1_8.index t (1 : Fin 2) * 64 + 1 * (j 1).val; omega
  have r2 : iblk1 V c 2 t (ix2 (j 0) (0 : Fin 1)) = V c main_v11 (ix2 ((((cfg1.win 8).blk t).view.emb j) 0) (0 : Fin 1)) := by
    show V c main_v11 (((cfg1.win 2).blk t).view.emb (ix2 (j 0) (0 : Fin 1))) = _
    refine congrArg (V c main_v11) (funext fun a => Fin.ext ?_)
    match a with
    | ⟨0, _⟩ => show win1_2.index t (0 : Fin 2) * 5000 + 1 * (j 0).val = win1_8.index t (0 : Fin 2) * 5000 + 1 * (j 0).val; omega
    | ⟨1, _⟩ => show win1_2.index t (1 : Fin 2) * 1 + 1 * 0 = 0; omega
  have r3 : iblk1 V c 3 t (ix2 (0 : Fin 1) (j 1)) = V c main_v41 (ix2 (0 : Fin 1) ((((cfg1.win 8).blk t).view.emb j) 1)) := by
    show V c main_v41 (((cfg1.win 3).blk t).view.emb (ix2 (0 : Fin 1) (j 1))) = _
    refine congrArg (V c main_v41) (funext fun a => Fin.ext ?_)
    match a with
    | ⟨0, _⟩ => show win1_3.index t (0 : Fin 2) * 1 + 1 * 0 = 0; omega
    | ⟨1, _⟩ => show win1_3.index t (1 : Fin 2) * 64 + 1 * (j 1).val = win1_8.index t (1 : Fin 2) * 64 + 1 * (j 1).val; omega
  have r4 : iblk1 V c 4 t (ix2 (0 : Fin 1) (j 1)) = V c main_v42 (ix2 (0 : Fin 1) ((((cfg1.win 8).blk t).view.emb j) 1)) := by
    show V c main_v42 (((cfg1.win 4).blk t).view.emb (ix2 (0 : Fin 1) (j 1))) = _
    refine congrArg (V c main_v42) (funext fun a => Fin.ext ?_)
    match a with
    | ⟨0, _⟩ => show win1_4.index t (0 : Fin 2) * 1 + 1 * 0 = 0; omega
    | ⟨1, _⟩ => show win1_4.index t (1 : Fin 2) * 64 + 1 * (j 1).val = win1_8.index t (1 : Fin 2) * 64 + 1 * (j 1).val; omega
  have r5 : iblk1 V c 5 t (ix2 (0 : Fin 1) (j 1)) = V c main_v43 (ix2 (0 : Fin 1) ((((cfg1.win 8).blk t).view.emb j) 1)) := by
    show V c main_v43 (((cfg1.win 5).blk t).view.emb (ix2 (0 : Fin 1) (j 1))) = _
    refine congrArg (V c main_v43) (funext fun a => Fin.ext ?_)
    match a with
    | ⟨0, _⟩ => show win1_5.index t (0 : Fin 2) * 1 + 1 * 0 = 0; omega
    | ⟨1, _⟩ => show win1_5.index t (1 : Fin 2) * 64 + 1 * (j 1).val = win1_8.index t (1 : Fin 2) * 64 + 1 * (j 1).val; omega
  have r6 : iblk1 V c 6 t (ix2 (0 : Fin 1) (j 1)) = V c main_v44 (ix2 (0 : Fin 1) ((((cfg1.win 8).blk t).view.emb j) 1)) := by
    show V c main_v44 (((cfg1.win 6).blk t).view.emb (ix2 (0 : Fin 1) (j 1))) = _
    refine congrArg (V c main_v44) (funext fun a => Fin.ext ?_)
    match a with
    | ⟨0, _⟩ => show win1_6.index t (0 : Fin 2) * 1 + 1 * 0 = 0; omega
    | ⟨1, _⟩ => show win1_6.index t (1 : Fin 2) * 64 + 1 * (j 1).val = win1_8.index t (1 : Fin 2) * 64 + 1 * (j 1).val; omega
  have r7 : iblk1 V c 7 t (ix2 (0 : Fin 1) (j 1)) = V c main_v45 (ix2 (0 : Fin 1) ((((cfg1.win 8).blk t).view.emb j) 1)) := by
    show V c main_v45 (((cfg1.win 7).blk t).view.emb (ix2 (0 : Fin 1) (j 1))) = _
    refine congrArg (V c main_v45) (funext fun a => Fin.ext ?_)
    match a with
    | ⟨0, _⟩ => show win1_7.index t (0 : Fin 2) * 1 + 1 * 0 = 0; omega
    | ⟨1, _⟩ => show win1_7.index t (1 : Fin 2) * 64 + 1 * (j 1).val = win1_8.index t (1 : Fin 2) * 64 + 1 * (j 1).val; omega
  exact normRelu_congr _ _ _ _ _ _ _ _ _ _ _ _ _ _ _ _ j (((cfg1.win 8).blk t).view.emb j) r0 r1 r2 r3 r4 r5 r6 r7

/-- What point t writes back is block t of the layer function of the arrays the region found. -/
theorem flushed_eq (c : Dev nD) (t : Fin cfg1.N) :
    (dat1 (F := Ideal) V c).flushed 8 t
      = ((cfg1.win 8).blk t).view.read (Elt Ideal) (normRelu (V c main_v40) (V c main_v12) (V c main_v11) (V c main_v41) (V c main_v42) (V c main_v43) (V c main_v44) (V c main_v45)) := by
  show (cfg1.win 8).cut (grid1.coords t) ((dat1 (F := Ideal) V c).after 8 t) = _
  rw [after1_8]
  unfold out1_8
  rw [View.canon_unit_zero zero_offsets]
  simp only [View.ld_unit_zero (S := S5000x1) zero_offsets, View.ld_unit_zero (S := S5000x64) zero_offsets, View.ld_unit_zero (S := S1x64) zero_offsets]
  rw [payload]
  funext j
  exact block_entry V c t j

/-- An index of the output array is in point t's block iff each coordinate is in the block's range. -/
theorem mem_block (t : Fin cfg1.N) (i : S100000x64.Idx) :
    i ∈ ((cfg1.win 8).blk t).view.set ↔ ∀ a : Fin 2, win1_8.index t a * S5000x64.size a ≤ (i a).val ∧ (i a).val < win1_8.index t a * S5000x64.size a + S5000x64.size a := by
  show i ∈ ((View.whole main_v46).slice (win1_8.rect t)).set ↔ _
  rw [View.set_slice_whole, Rect.mem_set_unit]
  exact Iff.rfl

/-- The blocks tile the array: row r is in the block of point r / 5000. -/
theorem cover (i : S100000x64.Idx) : ∃ t : Fin cfg1.N, (cfg1.win 8).flush t = true ∧ i ∈ ((cfg1.win 8).blk t).view.set := by
  have hi0 : (i 0).val < 100000 := (i 0).isLt
  have hi1 : (i 1).val < 64 := (i 1).isLt
  obtain ⟨t, ht⟩ := index_onto ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_block]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 64 ≤ (i 1).val ∧ (i 1).val < win1_8.index t (1 : Fin 2) * 64 + 64; omega

/-- The output array after the region: the layer function of the arrays the region found. -/
theorem array (c : Dev nD) :
    (dat1 (F := Ideal) V c).arrAt 8 cfg1.N = normRelu (V c main_v40) (V c main_v12) (V c main_v11) (V c main_v41) (V c main_v42) (V c main_v43) (V c main_v44) (V c main_v45) :=
  (dat1 (F := Ideal) V c).arrAt_eq_of_cover 8 _ (fun t _ => flushed_eq V c t) (cover)

end Cert.KernelIdeal.Region1

end
-- ==== Proof.Region2.lean ====
/-
  Region 2: a matrix product, over 20 blocks of 5000 rows.

  Each grid point loads a block of 5000 rows of the left operand and the right operand whole, and stores their
  product (the change of float format before the product is the identity on the extended reals, and the
  accumulator starts at zero). An entry (r, j) of a product depends only on row r of the left operand and column
  j of the right, so the block a point stores is that block of the product of the whole arrays; the 20 blocks
  tile the rows, so the output array ends as the product of the arrays the region found.
-/
import proofs.«153155_j71640054497345_1_alg».proof.Proof.Gen.KernelIdeal.Frame
import proofs.«153155_j71640054497345_1_alg».proof.Proof.LibLayerOps

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)
open Cert.Layer

variable (V : (c : Dev nD) → (b : Ref sig .tc) → Buf (Elt Ideal) ((c : Thread nD τ).loc b))

theorem zero_offsets : (![0, 0] : Fin 2 → Nat) = fun _ => 0 := funext fun a => by fin_cases a <;> rfl

local notation "dd" => dot_S5000x64_S64x32_S5000x32_1_0_0_1_n_n

theorem dims_lhs0 (i : S5000x32.Idx) (q : (dot_S5000x64_S64x32_S5000x32_1_0_0_1_n_n).contr.Idx) : ((dot_S5000x64_S64x32_S5000x32_1_0_0_1_n_n).lhsIdx i q 0).val = (i 0).val := by
  unfold DotDims.lhsIdx
  rw [dif_neg (show ¬(0 : Fin S5000x64.rank) ∈ (dot_S5000x64_S64x32_S5000x32_1_0_0_1_n_n).lhsBatch by decide), dif_pos (show (0 : Fin S5000x64.rank) ∈ (dot_S5000x64_S64x32_S5000x32_1_0_0_1_n_n).lhsNonContracting by decide)]
  rfl
theorem dims_lhs1 (i : S5000x32.Idx) (q : (dot_S5000x64_S64x32_S5000x32_1_0_0_1_n_n).contr.Idx) : ((dot_S5000x64_S64x32_S5000x32_1_0_0_1_n_n).lhsIdx i q 1).val = (q ⟨0, by decide⟩).val :=
  (dot_S5000x64_S64x32_S5000x32_1_0_0_1_n_n).lhsIdx_val_of_single rfl i q
theorem dims_rhs0 (i : S5000x32.Idx) (q : (dot_S5000x64_S64x32_S5000x32_1_0_0_1_n_n).contr.Idx) : ((dot_S5000x64_S64x32_S5000x32_1_0_0_1_n_n).rhsIdx i q 0).val = (q ⟨0, by decide⟩).val :=
  (dot_S5000x64_S64x32_S5000x32_1_0_0_1_n_n).rhsIdx_val_of_single rfl i q
theorem dims_rhs1 (i : S5000x32.Idx) (q : (dot_S5000x64_S64x32_S5000x32_1_0_0_1_n_n).contr.Idx) : ((dot_S5000x64_S64x32_S5000x32_1_0_0_1_n_n).rhsIdx i q 1).val = (i 1).val := by
  unfold DotDims.rhsIdx
  rw [dif_neg (show ¬(1 : Fin S64x32.rank) ∈ (dot_S5000x64_S64x32_S5000x32_1_0_0_1_n_n).rhsBatch by decide), dif_pos (show (1 : Fin S64x32.rank) ∈ (dot_S5000x64_S64x32_S5000x32_1_0_0_1_n_n).rhsNonContracting by decide)]
  rfl

/-- The body's arithmetic on its loaded blocks is the matrix product at the block's extents. -/
theorem payload (x : Vec Ideal S5000x64 .f32) (w : Vec Ideal S64x32 .f32) : k2_pay1 (F := Ideal) x w = dense x w := by
  unfold k2_pay1
  dsimp only
  rw [shapeCast_self]
  exact Cert.LayerOps.dense_vec dot_S5000x64_S64x32_S5000x32_1_0_0_1_n_n rfl rfl dims_lhs0 dims_lhs1 dims_rhs0 dims_rhs1 _ x w

/-- The index maps over the grid: the left operand moves with the output, block t at row-block t; the right
    operand stays at its one block. -/
theorem index_maps : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0 ∧ win2_2.index t (1 : Fin 2) = 0 :=
  (by decide +kernel : ∀ t : Fin grid2.N, _)

/-- Every row-block is some point's. -/
theorem index_onto : ∀ q : Fin 20, ∃ t : Fin cfg2.N, win2_2.index t = ![q.val, 0] :=
  (by decide +kernel : ∀ q : Fin 20, ∃ t : Fin grid2.N, win2_2.index t = ![q.val, 0])

/-- An entry of the block point t computes is the product of the whole arrays at that entry's place. -/
theorem block_entry (c : Dev nD) (t : Fin cfg2.N) (j : S5000x32.Idx) :
    dense (iblk2 V c 0 t) (iblk2 V c 1 t) j = dense (V c main_v46) (V c main_arg8) (((cfg2.win 2).blk t).view.emb j) := by
  obtain ⟨e0a, e0b, e1a, e1b, e2b⟩ := index_maps t
  have hX : ∀ k : Fin 64, iblk2 V c 0 t (ix2 (j 0) k) = V c main_v46 (ix2 ((((cfg2.win 2).blk t).view.emb j) 0) k) := fun k => by
    show V c main_v46 (((cfg2.win 0).blk t).view.emb (ix2 (j 0) k)) = _
    refine congrArg (V c main_v46) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have hW : ∀ k : Fin 64, iblk2 V c 1 t (ix2 k (j 1)) = V c main_arg8 (ix2 k ((((cfg2.win 2).blk t).view.emb j) 1)) := fun k => by
    show V c main_arg8 (((cfg2.win 1).blk t).view.emb (ix2 k (j 1))) = _
    refine congrArg (V c main_arg8) (funext fun a => Fin.ext ?_)
    match a with
    | ⟨0, _⟩ => show win2_1.index t (0 : Fin 2) * 64 + 1 * k.val = k.val; omega
    | ⟨1, _⟩ => show win2_1.index t (1 : Fin 2) * 32 + 1 * (j 1).val = win2_2.index t (1 : Fin 2) * 32 + 1 * (j 1).val; omega
  exact dense_congr _ _ _ _ j (((cfg2.win 2).blk t).view.emb j) hX hW

/-- What point t writes back is block t of the product of the arrays the region found. -/
theorem flushed_eq (c : Dev nD) (t : Fin cfg2.N) :
    (dat2 (F := Ideal) V c).flushed 2 t = ((cfg2.win 2).blk t).view.read (Elt Ideal) (dense (V c main_v46) (V c main_arg8)) := by
  show (cfg2.win 2).cut (grid2.coords t) ((dat2 (F := Ideal) V c).after 2 t) = _
  rw [after2_2]
  unfold out2_2
  rw [View.canon_unit_zero zero_offsets]
  simp only [View.ld_unit_zero (S := S5000x64) zero_offsets, View.ld_unit_zero (S := S64x32) zero_offsets]
  rw [payload]
  funext j
  exact block_entry V c t j

/-- An index of the output array is in point t's block iff each coordinate is in the block's range. -/
theorem mem_block (t : Fin cfg2.N) (i : S100000x32.Idx) :
    i ∈ ((cfg2.win 2).blk t).view.set ↔ ∀ a : Fin 2, win2_2.index t a * S5000x32.size a ≤ (i a).val ∧ (i a).val < win2_2.index t a * S5000x32.size a + S5000x32.size a := by
  show i ∈ ((View.whole main_v47).slice (win2_2.rect t)).set ↔ _
  rw [View.set_slice_whole, Rect.mem_set_unit]
  exact Iff.rfl

/-- The blocks tile the array: row r is in the block of point r / 5000. -/
theorem cover (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 32 ≤ (i 1).val ∧ (i 1).val < win2_2.index t (1 : Fin 2) * 32 + 32; omega

/-- The output array after the region: the product of the arrays the region found. -/
theorem array (c : Dev nD) : (dat2 (F := Ideal) V c).arrAt 2 cfg2.N = dense (V c main_v46) (V c main_arg8) :=
  (dat2 (F := Ideal) V c).arrAt_eq_of_cover 2 _ (fun t _ => flushed_eq V c t) (cover)

end Cert.KernelIdeal.Region2

end
-- ==== Proof.Region3.lean ====
/-
  Region 3: the self-loop term, bias, normalization and rectifier of one layer, over 20 blocks of 5000 rows.

  Each grid point loads a block of 5000 rows of the aggregate and of the transformed features, the matching
  5000 entries of the column of inverse square-root degrees, and the five one-row parameter matrices whole;
  it stores the layer function of those blocks. Since an entry of the layer function depends only on its own
  row of the arrays and its own column of the parameters, the block a point stores is that block of the layer
  function of the whole arrays; the 20 blocks tile the rows, so the output array ends as the layer function
  of the arrays the region found.
-/
import proofs.«153155_j71640054497345_1_alg».proof.Proof.Gen.KernelIdeal.Frame
import proofs.«153155_j71640054497345_1_alg».proof.Proof.LibLayerOps

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)
open Cert.Layer

variable (V : (c : Dev nD) → (b : Ref sig .tc) → Buf (Elt Ideal) ((c : Thread nD τ).loc b))

theorem zero_offsets : (![0, 0] : Fin 2 → Nat) = fun _ => 0 := funext fun a => by fin_cases a <;> rfl

/-- The body's arithmetic on its loaded blocks is the layer function at the block's extents. -/
theorem payload (d : Vec Ideal S5000x1 .f32) (a h : Vec Ideal S5000x32 .f32) (b g mu v be : Vec Ideal S1x32 .f32) :
    k3_pay1 (F := Ideal) d a h b g mu v be = normRelu a h d b g be mu v := by
  unfold k3_pay1
  exact Cert.LayerOps.normRelu_vec a h d b g be mu v _ _ _ _ _

/-- The index maps over the grid: the three row-blocked inputs move with the output, block t at row-block t of
    the one column-block; the parameter rows stay at their one block. -/
theorem index_maps : ∀ t : Fin cfg3.N,
    win3_0.index t (0 : Fin 2) = win3_8.index t (0 : Fin 2) ∧ win3_0.index t (1 : Fin 2) = 0
    ∧ win3_1.index t (0 : Fin 2) = win3_8.index t (0 : Fin 2) ∧ win3_1.index t (1 : Fin 2) = 0
    ∧ win3_2.index t (0 : Fin 2) = win3_8.index t (0 : Fin 2) ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (1 : Fin 2) = 0 :=
  (by decide +kernel : ∀ t : Fin grid3.N, _)

/-- Every row-block is some point's. -/
theorem index_onto : ∀ q : Fin 20, ∃ t : Fin cfg3.N, win3_8.index t = ![q.val, 0] :=
  (by decide +kernel : ∀ q : Fin 20, ∃ t : Fin grid3.N, win3_8.index t = ![q.val, 0])

/-- An entry of the block point t computes is the layer function of the whole arrays at that entry's place. -/
theorem block_entry (c : Dev nD) (t : Fin cfg3.N) (j : S5000x32.Idx) :
    normRelu (iblk3 V c 0 t) (iblk3 V c 1 t) (iblk3 V c 2 t) (iblk3 V c 3 t) (iblk3 V c 4 t) (iblk3 V c 5 t) (iblk3 V c 6 t) (iblk3 V c 7 t) j
      = normRelu (V c main_v75) (V c main_v47) (V c main_v11) (V c main_v76) (V c main_v77) (V c main_v78) (V c main_v79) (V c main_v80) (((cfg3.win 8).blk t).view.emb j) := by
  obtain ⟨e0a, e0b, e1a, e1b, e2a, e2b, e3a, e3b, e4a, e4b, e5a, e5b, e6a, e6b, e7a, e7b, e8b⟩ := index_maps t
  have r0 : iblk3 V c 0 t j = V c main_v75 (((cfg3.win 8).blk t).view.emb j) := by
    show V c main_v75 (((cfg3.win 0).blk t).view.emb j) = _
    refine congrArg (V c main_v75) (funext fun a => Fin.ext ?_)
    match a with
    | ⟨0, _⟩ => show win3_0.index t (0 : Fin 2) * 5000 + 1 * (j 0).val = win3_8.index t (0 : Fin 2) * 5000 + 1 * (j 0).val; omega
    | ⟨1, _⟩ => show win3_0.index t (1 : Fin 2) * 32 + 1 * (j 1).val = win3_8.index t (1 : Fin 2) * 32 + 1 * (j 1).val; omega
  have r1 : iblk3 V c 1 t j = V c main_v47 (((cfg3.win 8).blk t).view.emb j) := by
    show V c main_v47 (((cfg3.win 1).blk t).view.emb j) = _
    refine congrArg (V c main_v47) (funext fun a => Fin.ext ?_)
    match a with
    | ⟨0, _⟩ => show win3_1.index t (0 : Fin 2) * 5000 + 1 * (j 0).val = win3_8.index t (0 : Fin 2) * 5000 + 1 * (j 0).val; omega
    | ⟨1, _⟩ => show win3_1.index t (1 : Fin 2) * 32 + 1 * (j 1).val = win3_8.index t (1 : Fin 2) * 32 + 1 * (j 1).val; omega
  have r2 : iblk3 V c 2 t (ix2 (j 0) (0 : Fin 1)) = V c main_v11 (ix2 ((((cfg3.win 8).blk t).view.emb j) 0) (0 : Fin 1)) := by
    show V c main_v11 (((cfg3.win 2).blk t).view.emb (ix2 (j 0) (0 : Fin 1))) = _
    refine congrArg (V c main_v11) (funext fun a => Fin.ext ?_)
    match a with
    | ⟨0, _⟩ => show win3_2.index t (0 : Fin 2) * 5000 + 1 * (j 0).val = win3_8.index t (0 : Fin 2) * 5000 + 1 * (j 0).val; omega
    | ⟨1, _⟩ => show win3_2.index t (1 : Fin 2) * 1 + 1 * 0 = 0; omega
  have r3 : iblk3 V c 3 t (ix2 (0 : Fin 1) (j 1)) = V c main_v76 (ix2 (0 : Fin 1) ((((cfg3.win 8).blk t).view.emb j) 1)) := by
    show V c main_v76 (((cfg3.win 3).blk t).view.emb (ix2 (0 : Fin 1) (j 1))) = _
    refine congrArg (V c main_v76) (funext fun a => Fin.ext ?_)
    match a with
    | ⟨0, _⟩ => show win3_3.index t (0 : Fin 2) * 1 + 1 * 0 = 0; omega
    | ⟨1, _⟩ => show win3_3.index t (1 : Fin 2) * 32 + 1 * (j 1).val = win3_8.index t (1 : Fin 2) * 32 + 1 * (j 1).val; omega
  have r4 : iblk3 V c 4 t (ix2 (0 : Fin 1) (j 1)) = V c main_v77 (ix2 (0 : Fin 1) ((((cfg3.win 8).blk t).view.emb j) 1)) := by
    show V c main_v77 (((cfg3.win 4).blk t).view.emb (ix2 (0 : Fin 1) (j 1))) = _
    refine congrArg (V c main_v77) (funext fun a => Fin.ext ?_)
    match a with
    | ⟨0, _⟩ => show win3_4.index t (0 : Fin 2) * 1 + 1 * 0 = 0; omega
    | ⟨1, _⟩ => show win3_4.index t (1 : Fin 2) * 32 + 1 * (j 1).val = win3_8.index t (1 : Fin 2) * 32 + 1 * (j 1).val; omega
  have r5 : iblk3 V c 5 t (ix2 (0 : Fin 1) (j 1)) = V c main_v78 (ix2 (0 : Fin 1) ((((cfg3.win 8).blk t).view.emb j) 1)) := by
    show V c main_v78 (((cfg3.win 5).blk t).view.emb (ix2 (0 : Fin 1) (j 1))) = _
    refine congrArg (V c main_v78) (funext fun a => Fin.ext ?_)
    match a with
    | ⟨0, _⟩ => show win3_5.index t (0 : Fin 2) * 1 + 1 * 0 = 0; omega
    | ⟨1, _⟩ => show win3_5.index t (1 : Fin 2) * 32 + 1 * (j 1).val = win3_8.index t (1 : Fin 2) * 32 + 1 * (j 1).val; omega
  have r6 : iblk3 V c 6 t (ix2 (0 : Fin 1) (j 1)) = V c main_v79 (ix2 (0 : Fin 1) ((((cfg3.win 8).blk t).view.emb j) 1)) := by
    show V c main_v79 (((cfg3.win 6).blk t).view.emb (ix2 (0 : Fin 1) (j 1))) = _
    refine congrArg (V c main_v79) (funext fun a => Fin.ext ?_)
    match a with
    | ⟨0, _⟩ => show win3_6.index t (0 : Fin 2) * 1 + 1 * 0 = 0; omega
    | ⟨1, _⟩ => show win3_6.index t (1 : Fin 2) * 32 + 1 * (j 1).val = win3_8.index t (1 : Fin 2) * 32 + 1 * (j 1).val; omega
  have r7 : iblk3 V c 7 t (ix2 (0 : Fin 1) (j 1)) = V c main_v80 (ix2 (0 : Fin 1) ((((cfg3.win 8).blk t).view.emb j) 1)) := by
    show V c main_v80 (((cfg3.win 7).blk t).view.emb (ix2 (0 : Fin 1) (j 1))) = _
    refine congrArg (V c main_v80) (funext fun a => Fin.ext ?_)
    match a with
    | ⟨0, _⟩ => show win3_7.index t (0 : Fin 2) * 1 + 1 * 0 = 0; omega
    | ⟨1, _⟩ => show win3_7.index t (1 : Fin 2) * 32 + 1 * (j 1).val = win3_8.index t (1 : Fin 2) * 32 + 1 * (j 1).val; omega
  exact normRelu_congr _ _ _ _ _ _ _ _ _ _ _ _ _ _ _ _ j (((cfg3.win 8).blk t).view.emb j) r0 r1 r2 r3 r4 r5 r6 r7

/-- What point t writes back is block t of the layer function of the arrays the region found. -/
theorem flushed_eq (c : Dev nD) (t : Fin cfg3.N) :
    (dat3 (F := Ideal) V c).flushed 8 t
      = ((cfg3.win 8).blk t).view.read (Elt Ideal) (normRelu (V c main_v75) (V c main_v47) (V c main_v11) (V c main_v76) (V c main_v77) (V c main_v78) (V c main_v79) (V c main_v80)) := by
  show (cfg3.win 8).cut (grid3.coords t) ((dat3 (F := Ideal) V c).after 8 t) = _
  rw [after3_8]
  unfold out3_8
  rw [View.canon_unit_zero zero_offsets]
  simp only [View.ld_unit_zero (S := S5000x1) zero_offsets, View.ld_unit_zero (S := S5000x32) zero_offsets, View.ld_unit_zero (S := S1x32) zero_offsets]
  rw [payload]
  funext j
  exact block_entry V c t j

/-- An index of the output array is in point t's block iff each coordinate is in the block's range. -/
theorem mem_block (t : Fin cfg3.N) (i : S100000x32.Idx) :
    i ∈ ((cfg3.win 8).blk t).view.set ↔ ∀ a : Fin 2, win3_8.index t a * S5000x32.size a ≤ (i a).val ∧ (i a).val < win3_8.index t a * S5000x32.size a + S5000x32.size a := by
  show i ∈ ((View.whole main_v81).slice (win3_8.rect t)).set ↔ _
  rw [View.set_slice_whole, Rect.mem_set_unit]
  exact Iff.rfl

/-- The blocks tile the array: row r is in the block of point r / 5000. -/
theorem cover (i : S100000x32.Idx) : ∃ t : Fin cfg3.N, (cfg3.win 8).flush t = true ∧ i ∈ ((cfg3.win 8).blk t).view.set := by
  have hi0 : (i 0).val < 100000 := (i 0).isLt
  have hi1 : (i 1).val < 32 := (i 1).isLt
  obtain ⟨t, ht⟩ := index_onto ⟨(i 0).val / 5000, by omega⟩
  have q0 : win3_8.index t (0 : Fin 2) = (i 0).val / 5000 := congrFun ht 0
  have q1 : win3_8.index t (1 : Fin 2) = 0 := congrFun ht 1
  refine ⟨t, flush3_8 t, ?_⟩
  rw [mem_block]
  intro a
  match a with
  | ⟨0, _⟩ => show win3_8.index t (0 : Fin 2) * 5000 ≤ (i 0).val ∧ (i 0).val < win3_8.index t (0 : Fin 2) * 5000 + 5000; omega
  | ⟨1, _⟩ => show win3_8.index t (1 : Fin 2) * 32 ≤ (i 1).val ∧ (i 1).val < win3_8.index t (1 : Fin 2) * 32 + 32; omega

/-- The output array after the region: the layer function of the arrays the region found. -/
theorem array (c : Dev nD) :
    (dat3 (F := Ideal) V c).arrAt 8 cfg3.N = normRelu (V c main_v75) (V c main_v47) (V c main_v11) (V c main_v76) (V c main_v77) (V c main_v78) (V c main_v79) (V c main_v80) :=
  (dat3 (F := Ideal) V c).arrAt_eq_of_cover 8 _ (fun t _ => flushed_eq V c t) (cover)

end Cert.KernelIdeal.Region3

end
-- ==== Proof.Region4.lean ====
/-
  Region 4: a matrix product, over 20 blocks of 5000 rows.

  Each grid point loads a block of 5000 rows of the left operand and the right operand whole, and stores their
  product (the change of float format before the product is the identity on the extended reals, and the
  accumulator starts at zero). An entry (r, j) of a product depends only on row r of the left operand and column
  j of the right, so the block a point stores is that block of the product of the whole arrays; the 20 blocks
  tile the rows, so the output array ends as the product of the arrays the region found.
-/
import proofs.«153155_j71640054497345_1_alg».proof.Proof.Gen.KernelIdeal.Frame
import proofs.«153155_j71640054497345_1_alg».proof.Proof.LibLayerOps

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat)
open Cert.Layer

variable (V : (c : Dev nD) → (b : Ref sig .tc) → Buf (Elt Ideal) ((c : Thread nD τ).loc b))

theorem zero_offsets : (![0, 0] : Fin 2 → Nat) = fun _ => 0 := funext fun a => by fin_cases a <;> rfl

local notation "dd" => dot_S5000x32_S32x16_S5000x16_1_0_0_1_n_n

theorem dims_lhs0 (i : S5000x16.Idx) (q : (dot_S5000x32_S32x16_S5000x16_1_0_0_1_n_n).contr.Idx) : ((dot_S5000x32_S32x16_S5000x16_1_0_0_1_n_n).lhsIdx i q 0).val = (i 0).val := by
  unfold DotDims.lhsIdx
  rw [dif_neg (show ¬(0 : Fin S5000x32.rank) ∈ (dot_S5000x32_S32x16_S5000x16_1_0_0_1_n_n).lhsBatch by decide), dif_pos (show (0 : Fin S5000x32.rank) ∈ (dot_S5000x32_S32x16_S5000x16_1_0_0_1_n_n).lhsNonContracting by decide)]
  rfl
theorem dims_lhs1 (i : S5000x16.Idx) (q : (dot_S5000x32_S32x16_S5000x16_1_0_0_1_n_n).contr.Idx) : ((dot_S5000x32_S32x16_S5000x16_1_0_0_1_n_n).lhsIdx i q 1).val = (q ⟨0, by decide⟩).val :=
  (dot_S5000x32_S32x16_S5000x16_1_0_0_1_n_n).lhsIdx_val_of_single rfl i q
theorem dims_rhs0 (i : S5000x16.Idx) (q : (dot_S5000x32_S32x16_S5000x16_1_0_0_1_n_n).contr.Idx) : ((dot_S5000x32_S32x16_S5000x16_1_0_0_1_n_n).rhsIdx i q 0).val = (q ⟨0, by decide⟩).val :=
  (dot_S5000x32_S32x16_S5000x16_1_0_0_1_n_n).rhsIdx_val_of_single rfl i q
theorem dims_rhs1 (i : S5000x16.Idx) (q : (dot_S5000x32_S32x16_S5000x16_1_0_0_1_n_n).contr.Idx) : ((dot_S5000x32_S32x16_S5000x16_1_0_0_1_n_n).rhsIdx i q 1).val = (i 1).val := by
  unfold DotDims.rhsIdx
  rw [dif_neg (show ¬(1 : Fin S32x16.rank) ∈ (dot_S5000x32_S32x16_S5000x16_1_0_0_1_n_n).rhsBatch by decide), dif_pos (show (1 : Fin S32x16.rank) ∈ (dot_S5000x32_S32x16_S5000x16_1_0_0_1_n_n).rhsNonContracting by decide)]
  rfl

/-- The body's arithmetic on its loaded blocks is the matrix product at the block's extents. -/
theorem payload (x : Vec Ideal S5000x32 .f32) (w : Vec Ideal S32x16 .f32) : k4_pay1 (F := Ideal) x w = dense x w := by
  unfold k4_pay1
  dsimp only
  rw [shapeCast_self]
  exact Cert.LayerOps.dense_vec dot_S5000x32_S32x16_S5000x16_1_0_0_1_n_n rfl rfl dims_lhs0 dims_lhs1 dims_rhs0 dims_rhs1 _ x w

/-- The index maps over the grid: the left operand moves with the output, block t at row-block t; the right
    operand stays at its one block. -/
theorem index_maps : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0 ∧ win4_2.index t (1 : Fin 2) = 0 :=
  (by decide +kernel : ∀ t : Fin grid4.N, _)

/-- Every row-block is some point's. -/
theorem index_onto : ∀ q : Fin 20, ∃ t : Fin cfg4.N, win4_2.index t = ![q.val, 0] :=
  (by decide +kernel : ∀ q : Fin 20, ∃ t : Fin grid4.N, win4_2.index t = ![q.val, 0])

/-- An entry of the block point t computes is the product of the whole arrays at that entry's place. -/
theorem block_entry (c : Dev nD) (t : Fin cfg4.N) (j : S5000x16.Idx) :
    dense (iblk4 V c 0 t) (iblk4 V c 1 t) j = dense (V c main_v81) (V c main_arg14) (((cfg4.win 2).blk t).view.emb j) := by
  obtain ⟨e0a, e0b, e1a, e1b, e2b⟩ := index_maps t
  have hX : ∀ k : Fin 32, iblk4 V c 0 t (ix2 (j 0) k) = V c main_v81 (ix2 ((((cfg4.win 2).blk t).view.emb j) 0) k) := fun k => by
    show V c main_v81 (((cfg4.win 0).blk t).view.emb (ix2 (j 0) k)) = _
    refine congrArg (V c main_v81) (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 32 + 1 * k.val = k.val; omega
  have hW : ∀ k : Fin 32, iblk4 V c 1 t (ix2 k (j 1)) = V c main_arg14 (ix2 k ((((cfg4.win 2).blk t).view.emb j) 1)) := fun k => by
    show V c main_arg14 (((cfg4.win 1).blk t).view.emb (ix2 k (j 1))) = _
    refine congrArg (V c main_arg14) (funext fun a => Fin.ext ?_)
    match a with
    | ⟨0, _⟩ => show win4_1.index t (0 : Fin 2) * 32 + 1 * k.val = k.val; omega
    | ⟨1, _⟩ => show win4_1.index t (1 : Fin 2) * 16 + 1 * (j 1).val = win4_2.index t (1 : Fin 2) * 16 + 1 * (j 1).val; omega
  exact dense_congr _ _ _ _ j (((cfg4.win 2).blk t).view.emb j) hX hW

/-- What point t writes back is block t of the product of the arrays the region found. -/
theorem flushed_eq (c : Dev nD) (t : Fin cfg4.N) :
    (dat4 (F := Ideal) V c).flushed 2 t = ((cfg4.win 2).blk t).view.read (Elt Ideal) (dense (V c main_v81) (V c main_arg14)) := by
  show (cfg4.win 2).cut (grid4.coords t) ((dat4 (F := Ideal) V c).after 2 t) = _
  rw [after4_2]
  unfold out4_2
  rw [View.canon_unit_zero zero_offsets]
  simp only [View.ld_unit_zero (S := S5000x32) zero_offsets, View.ld_unit_zero (S := S32x16) zero_offsets]
  rw [payload]
  funext j
  exact block_entry V c t j

/-- An index of the output array is in point t's block iff each coordinate is in the block's range. -/
theorem mem_block (t : Fin cfg4.N) (i : S100000x16.Idx) :
    i ∈ ((cfg4.win 2).blk t).view.set ↔ ∀ a : Fin 2, win4_2.index t a * S5000x16.size a ≤ (i a).val ∧ (i a).val < win4_2.index t a * S5000x16.size a + S5000x16.size a := by
  show i ∈ ((View.whole main_v82).slice (win4_2.rect t)).set ↔ _
  rw [View.set_slice_whole, Rect.mem_set_unit]
  exact Iff.rfl

/-- The blocks tile the array: row r is in the block of point r / 5000. -/
theorem cover (i : S100000x16.Idx) : ∃ t : Fin cfg4.N, (cfg4.win 2).flush t = true ∧ i ∈ ((cfg4.win 2).blk t).view.set := by
  have hi0 : (i 0).val < 100000 := (i 0).isLt
  have hi1 : (i 1).val < 16 := (i 1).isLt
  obtain ⟨t, ht⟩ := index_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 16 ≤ (i 1).val ∧ (i 1).val < win4_2.index t (1 : Fin 2) * 16 + 16; omega

/-- The output array after the region: the product of the arrays the region found. -/
theorem array (c : Dev nD) : (dat4 (F := Ideal) V c).arrAt 2 cfg4.N = dense (V c main_v81) (V c main_arg14) :=
  (dat4 (F := Ideal) V c).arrAt_eq_of_cover 2 _ (fun t _ => flushed_eq V c t) (cover)

end Cert.KernelIdeal.Region4

end
-- ==== Proof.Region5.lean ====
/-
  Region 5: the self-loop term, bias, normalization and rectifier of one layer, over 20 blocks of 5000 rows.

  Each grid point loads a block of 5000 rows of the aggregate and of the transformed features, the matching
  5000 entries of the column of inverse square-root degrees, and the five one-row parameter matrices whole;
  it stores the layer function of those blocks. Since an entry of the layer function depends only on its own
  row of the arrays and its own column of the parameters, the block a point stores is that block of the layer
  function of the whole arrays; the 20 blocks tile the rows, so the output array ends as the layer function
  of the arrays the region found.
-/
import proofs.«153155_j71640054497345_1_alg».proof.Proof.Gen.KernelIdeal.Frame
import proofs.«153155_j71640054497345_1_alg».proof.Proof.LibLayerOps

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat)
open Cert.Layer

variable (V : (c : Dev nD) → (b : Ref sig .tc) → Buf (Elt Ideal) ((c : Thread nD τ).loc b))

theorem zero_offsets : (![0, 0] : Fin 2 → Nat) = fun _ => 0 := funext fun a => by fin_cases a <;> rfl

/-- The body's arithmetic on its loaded blocks is the layer function at the block's extents. -/
theorem payload (d : Vec Ideal S5000x1 .f32) (a h : Vec Ideal S5000x16 .f32) (b g mu v be : Vec Ideal S1x16 .f32) :
    k5_pay1 (F := Ideal) d a h b g mu v be = normRelu a h d b g be mu v := by
  unfold k5_pay1
  exact Cert.LayerOps.normRelu_vec a h d b g be mu v _ _ _ _ _

/-- The index maps over the grid: the three row-blocked inputs move with the output, block t at row-block t of
    the one column-block; the parameter rows stay at their one block. -/
theorem index_maps : ∀ t : Fin cfg5.N,
    win5_0.index t (0 : Fin 2) = win5_8.index t (0 : Fin 2) ∧ win5_0.index t (1 : Fin 2) = 0
    ∧ win5_1.index t (0 : Fin 2) = win5_8.index t (0 : Fin 2) ∧ win5_1.index t (1 : Fin 2) = 0
    ∧ win5_2.index t (0 : Fin 2) = win5_8.index t (0 : Fin 2) ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (1 : Fin 2) = 0 :=
  (by decide +kernel : ∀ t : Fin grid5.N, _)

/-- Every row-block is some point's. -/
theorem index_onto : ∀ q : Fin 20, ∃ t : Fin cfg5.N, win5_8.index t = ![q.val, 0] :=
  (by decide +kernel : ∀ q : Fin 20, ∃ t : Fin grid5.N, win5_8.index t = ![q.val, 0])

/-- An entry of the block point t computes is the layer function of the whole arrays at that entry's place. -/
theorem block_entry (c : Dev nD) (t : Fin cfg5.N) (j : S5000x16.Idx) :
    normRelu (iblk5 V c 0 t) (iblk5 V c 1 t) (iblk5 V c 2 t) (iblk5 V c 3 t) (iblk5 V c 4 t) (iblk5 V c 5 t) (iblk5 V c 6 t) (iblk5 V c 7 t) j
      = normRelu (V c main_v110) (V c main_v82) (V c main_v11) (V c main_v111) (V c main_v112) (V c main_v113) (V c main_v114) (V c main_v115) (((cfg5.win 8).blk t).view.emb j) := by
  obtain ⟨e0a, e0b, e1a, e1b, e2a, e2b, e3a, e3b, e4a, e4b, e5a, e5b, e6a, e6b, e7a, e7b, e8b⟩ := index_maps t
  have r0 : iblk5 V c 0 t j = V c main_v110 (((cfg5.win 8).blk t).view.emb j) := by
    show V c main_v110 (((cfg5.win 0).blk t).view.emb j) = _
    refine congrArg (V c main_v110) (funext fun a => Fin.ext ?_)
    match a with
    | ⟨0, _⟩ => show win5_0.index t (0 : Fin 2) * 5000 + 1 * (j 0).val = win5_8.index t (0 : Fin 2) * 5000 + 1 * (j 0).val; omega
    | ⟨1, _⟩ => show win5_0.index t (1 : Fin 2) * 16 + 1 * (j 1).val = win5_8.index t (1 : Fin 2) * 16 + 1 * (j 1).val; omega
  have r1 : iblk5 V c 1 t j = V c main_v82 (((cfg5.win 8).blk t).view.emb j) := by
    show V c main_v82 (((cfg5.win 1).blk t).view.emb j) = _
    refine congrArg (V c main_v82) (funext fun a => Fin.ext ?_)
    match a with
    | ⟨0, _⟩ => show win5_1.index t (0 : Fin 2) * 5000 + 1 * (j 0).val = win5_8.index t (0 : Fin 2) * 5000 + 1 * (j 0).val; omega
    | ⟨1, _⟩ => show win5_1.index t (1 : Fin 2) * 16 + 1 * (j 1).val = win5_8.index t (1 : Fin 2) * 16 + 1 * (j 1).val; omega
  have r2 : iblk5 V c 2 t (ix2 (j 0) (0 : Fin 1)) = V c main_v11 (ix2 ((((cfg5.win 8).blk t).view.emb j) 0) (0 : Fin 1)) := by
    show V c main_v11 (((cfg5.win 2).blk t).view.emb (ix2 (j 0) (0 : Fin 1))) = _
    refine congrArg (V c main_v11) (funext fun a => Fin.ext ?_)
    match a with
    | ⟨0, _⟩ => show win5_2.index t (0 : Fin 2) * 5000 + 1 * (j 0).val = win5_8.index t (0 : Fin 2) * 5000 + 1 * (j 0).val; omega
    | ⟨1, _⟩ => show win5_2.index t (1 : Fin 2) * 1 + 1 * 0 = 0; omega
  have r3 : iblk5 V c 3 t (ix2 (0 : Fin 1) (j 1)) = V c main_v111 (ix2 (0 : Fin 1) ((((cfg5.win 8).blk t).view.emb j) 1)) := by
    show V c main_v111 (((cfg5.win 3).blk t).view.emb (ix2 (0 : Fin 1) (j 1))) = _
    refine congrArg (V c main_v111) (funext fun a => Fin.ext ?_)
    match a with
    | ⟨0, _⟩ => show win5_3.index t (0 : Fin 2) * 1 + 1 * 0 = 0; omega
    | ⟨1, _⟩ => show win5_3.index t (1 : Fin 2) * 16 + 1 * (j 1).val = win5_8.index t (1 : Fin 2) * 16 + 1 * (j 1).val; omega
  have r4 : iblk5 V c 4 t (ix2 (0 : Fin 1) (j 1)) = V c main_v112 (ix2 (0 : Fin 1) ((((cfg5.win 8).blk t).view.emb j) 1)) := by
    show V c main_v112 (((cfg5.win 4).blk t).view.emb (ix2 (0 : Fin 1) (j 1))) = _
    refine congrArg (V c main_v112) (funext fun a => Fin.ext ?_)
    match a with
    | ⟨0, _⟩ => show win5_4.index t (0 : Fin 2) * 1 + 1 * 0 = 0; omega
    | ⟨1, _⟩ => show win5_4.index t (1 : Fin 2) * 16 + 1 * (j 1).val = win5_8.index t (1 : Fin 2) * 16 + 1 * (j 1).val; omega
  have r5 : iblk5 V c 5 t (ix2 (0 : Fin 1) (j 1)) = V c main_v113 (ix2 (0 : Fin 1) ((((cfg5.win 8).blk t).view.emb j) 1)) := by
    show V c main_v113 (((cfg5.win 5).blk t).view.emb (ix2 (0 : Fin 1) (j 1))) = _
    refine congrArg (V c main_v113) (funext fun a => Fin.ext ?_)
    match a with
    | ⟨0, _⟩ => show win5_5.index t (0 : Fin 2) * 1 + 1 * 0 = 0; omega
    | ⟨1, _⟩ => show win5_5.index t (1 : Fin 2) * 16 + 1 * (j 1).val = win5_8.index t (1 : Fin 2) * 16 + 1 * (j 1).val; omega
  have r6 : iblk5 V c 6 t (ix2 (0 : Fin 1) (j 1)) = V c main_v114 (ix2 (0 : Fin 1) ((((cfg5.win 8).blk t).view.emb j) 1)) := by
    show V c main_v114 (((cfg5.win 6).blk t).view.emb (ix2 (0 : Fin 1) (j 1))) = _
    refine congrArg (V c main_v114) (funext fun a => Fin.ext ?_)
    match a with
    | ⟨0, _⟩ => show win5_6.index t (0 : Fin 2) * 1 + 1 * 0 = 0; omega
    | ⟨1, _⟩ => show win5_6.index t (1 : Fin 2) * 16 + 1 * (j 1).val = win5_8.index t (1 : Fin 2) * 16 + 1 * (j 1).val; omega
  have r7 : iblk5 V c 7 t (ix2 (0 : Fin 1) (j 1)) = V c main_v115 (ix2 (0 : Fin 1) ((((cfg5.win 8).blk t).view.emb j) 1)) := by
    show V c main_v115 (((cfg5.win 7).blk t).view.emb (ix2 (0 : Fin 1) (j 1))) = _
    refine congrArg (V c main_v115) (funext fun a => Fin.ext ?_)
    match a with
    | ⟨0, _⟩ => show win5_7.index t (0 : Fin 2) * 1 + 1 * 0 = 0; omega
    | ⟨1, _⟩ => show win5_7.index t (1 : Fin 2) * 16 + 1 * (j 1).val = win5_8.index t (1 : Fin 2) * 16 + 1 * (j 1).val; omega
  exact normRelu_congr _ _ _ _ _ _ _ _ _ _ _ _ _ _ _ _ j (((cfg5.win 8).blk t).view.emb j) r0 r1 r2 r3 r4 r5 r6 r7

/-- What point t writes back is block t of the layer function of the arrays the region found. -/
theorem flushed_eq (c : Dev nD) (t : Fin cfg5.N) :
    (dat5 (F := Ideal) V c).flushed 8 t
      = ((cfg5.win 8).blk t).view.read (Elt Ideal) (normRelu (V c main_v110) (V c main_v82) (V c main_v11) (V c main_v111) (V c main_v112) (V c main_v113) (V c main_v114) (V c main_v115)) := by
  show (cfg5.win 8).cut (grid5.coords t) ((dat5 (F := Ideal) V c).after 8 t) = _
  rw [after5_8]
  unfold out5_8
  rw [View.canon_unit_zero zero_offsets]
  simp only [View.ld_unit_zero (S := S5000x1) zero_offsets, View.ld_unit_zero (S := S5000x16) zero_offsets, View.ld_unit_zero (S := S1x16) zero_offsets]
  rw [payload]
  funext j
  exact block_entry V c t j

/-- An index of the output array is in point t's block iff each coordinate is in the block's range. -/
theorem mem_block (t : Fin cfg5.N) (i : S100000x16.Idx) :
    i ∈ ((cfg5.win 8).blk t).view.set ↔ ∀ a : Fin 2, win5_8.index t a * S5000x16.size a ≤ (i a).val ∧ (i a).val < win5_8.index t a * S5000x16.size a + S5000x16.size a := by
  show i ∈ ((View.whole main_v116).slice (win5_8.rect t)).set ↔ _
  rw [View.set_slice_whole, Rect.mem_set_unit]
  exact Iff.rfl

/-- The blocks tile the array: row r is in the block of point r / 5000. -/
theorem cover (i : S100000x16.Idx) : ∃ t : Fin cfg5.N, (cfg5.win 8).flush t = true ∧ i ∈ ((cfg5.win 8).blk t).view.set := by
  have hi0 : (i 0).val < 100000 := (i 0).isLt
  have hi1 : (i 1).val < 16 := (i 1).isLt
  obtain ⟨t, ht⟩ := index_onto ⟨(i 0).val / 5000, by omega⟩
  have q0 : win5_8.index t (0 : Fin 2) = (i 0).val / 5000 := congrFun ht 0
  have q1 : win5_8.index t (1 : Fin 2) = 0 := congrFun ht 1
  refine ⟨t, flush5_8 t, ?_⟩
  rw [mem_block]
  intro a
  match a with
  | ⟨0, _⟩ => show win5_8.index t (0 : Fin 2) * 5000 ≤ (i 0).val ∧ (i 0).val < win5_8.index t (0 : Fin 2) * 5000 + 5000; omega
  | ⟨1, _⟩ => show win5_8.index t (1 : Fin 2) * 16 ≤ (i 1).val ∧ (i 1).val < win5_8.index t (1 : Fin 2) * 16 + 16; omega

/-- The output array after the region: the layer function of the arrays the region found. -/
theorem array (c : Dev nD) :
    (dat5 (F := Ideal) V c).arrAt 8 cfg5.N = normRelu (V c main_v110) (V c main_v82) (V c main_v11) (V c main_v111) (V c main_v112) (V c main_v113) (V c main_v114) (V c main_v115) :=
  (dat5 (F := Ideal) V c).arrAt_eq_of_cover 8 _ (fun t _ => flushed_eq V c t) (cover)

end Cert.KernelIdeal.Region5

end
-- ==== Proof.Region6.lean ====
/-
  Region 6: the classifier (product, bias, logistic function), over 20 blocks of 5000 rows.

  Each grid point loads a block of 5000 rows of the features, the weight matrix and the one-row bias whole, and
  stores the logistic function of their product plus the bias. An entry (r, j) depends only on row r of the
  features, column j of the weights and entry j of the bias, so the block a point stores is that block of the
  classifier of the whole arrays; the 20 blocks tile the rows.
-/
import proofs.«153155_j71640054497345_1_alg».proof.Proof.Gen.KernelIdeal.Frame
import proofs.«153155_j71640054497345_1_alg».proof.Proof.LibLayerOps

set_option maxRecDepth 16384

noncomputable section

namespace Cert.KernelIdeal.Region6

open Cert.KernelIdeal Cert.KernelIdeal.Gen
open Idealize.ShloMosaic Idealize.ShloMosaic.TcCoe Idealize.ShloMosaic.ValueIdx Idealize.SL.Sem
open Idealize.ShloMosaic.Pipeline (Dat)
open Cert.Layer

variable (V : (c : Dev nD) → (b : Ref sig .tc) → Buf (Elt Ideal) ((c : Thread nD τ).loc b))

theorem zero_offsets : (![0, 0] : Fin 2 → Nat) = fun _ => 0 := funext fun a => by fin_cases a <;> rfl

local notation "dd" => dot_S5000x16_S16x8_S5000x8_1_0_0_1_n_n

theorem dims_lhs0 (i : S5000x8.Idx) (q : (dot_S5000x16_S16x8_S5000x8_1_0_0_1_n_n).contr.Idx) : ((dot_S5000x16_S16x8_S5000x8_1_0_0_1_n_n).lhsIdx i q 0).val = (i 0).val := by
  unfold DotDims.lhsIdx
  rw [dif_neg (show ¬(0 : Fin S5000x16.rank) ∈ (dot_S5000x16_S16x8_S5000x8_1_0_0_1_n_n).lhsBatch by decide), dif_pos (show (0 : Fin S5000x16.rank) ∈ (dot_S5000x16_S16x8_S5000x8_1_0_0_1_n_n).lhsNonContracting by decide)]
  rfl
theorem dims_lhs1 (i : S5000x8.Idx) (q : (dot_S5000x16_S16x8_S5000x8_1_0_0_1_n_n).contr.Idx) : ((dot_S5000x16_S16x8_S5000x8_1_0_0_1_n_n).lhsIdx i q 1).val = (q ⟨0, by decide⟩).val :=
  (dot_S5000x16_S16x8_S5000x8_1_0_0_1_n_n).lhsIdx_val_of_single rfl i q
theorem dims_rhs0 (i : S5000x8.Idx) (q : (dot_S5000x16_S16x8_S5000x8_1_0_0_1_n_n).contr.Idx) : ((dot_S5000x16_S16x8_S5000x8_1_0_0_1_n_n).rhsIdx i q 0).val = (q ⟨0, by decide⟩).val :=
  (dot_S5000x16_S16x8_S5000x8_1_0_0_1_n_n).rhsIdx_val_of_single rfl i q
theorem dims_rhs1 (i : S5000x8.Idx) (q : (dot_S5000x16_S16x8_S5000x8_1_0_0_1_n_n).contr.Idx) : ((dot_S5000x16_S16x8_S5000x8_1_0_0_1_n_n).rhsIdx i q 1).val = (i 1).val := by
  unfold DotDims.rhsIdx
  rw [dif_neg (show ¬(1 : Fin S16x8.rank) ∈ (dot_S5000x16_S16x8_S5000x8_1_0_0_1_n_n).rhsBatch by decide), dif_pos (show (1 : Fin S16x8.rank) ∈ (dot_S5000x16_S16x8_S5000x8_1_0_0_1_n_n).rhsNonContracting by decide)]
  rfl

/-- The body's arithmetic on its loaded blocks is the classifier at the block's extents. -/
theorem payload (x : Vec Ideal S5000x16 .f32) (w : Vec Ideal S16x8 .f32) (b : Vec Ideal S1x8 .f32) :
    k6_pay1 (F := Ideal) x w b = denseLogistic x w b := by
  unfold k6_pay1
  exact Cert.LayerOps.denseLogistic_vec dot_S5000x16_S16x8_S5000x8_1_0_0_1_n_n rfl rfl dims_lhs0 dims_lhs1 dims_rhs0 dims_rhs1 _ x w b _ _ _

/-- The index maps over the grid: the features move with the output; the weights and the bias stay. -/
theorem index_maps : ∀ t : Fin cfg6.N,
    win6_0.index t (0 : Fin 2) = win6_3.index t (0 : Fin 2) ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0 ∧ win6_3.index t (1 : Fin 2) = 0 :=
  (by decide +kernel : ∀ t : Fin grid6.N, _)

/-- Every row-block is some point's. -/
theorem index_onto : ∀ q : Fin 20, ∃ t : Fin cfg6.N, win6_3.index t = ![q.val, 0] :=
  (by decide +kernel : ∀ q : Fin 20, ∃ t : Fin grid6.N, win6_3.index t = ![q.val, 0])

/-- An entry of the block point t computes is the classifier of the whole arrays at that entry's place. -/
theorem block_entry (c : Dev nD) (t : Fin cfg6.N) (j : S5000x8.Idx) :
    denseLogistic (iblk6 V c 0 t) (iblk6 V c 1 t) (iblk6 V c 2 t) j
      = denseLogistic (V c main_v116) (V c main_arg20) (V c main_v117) (((cfg6.win 3).blk t).view.emb j) := by
  obtain ⟨e0a, e0b, e1a, e1b, e2a, e2b, e3b⟩ := index_maps t
  have hX : ∀ k : Fin 16, iblk6 V c 0 t (ix2 (j 0) k) = V c main_v116 (ix2 ((((cfg6.win 3).blk t).view.emb j) 0) k) := fun k => by
    show V c main_v116 (((cfg6.win 0).blk t).view.emb (ix2 (j 0) k)) = _
    refine congrArg (V c main_v116) (funext fun a => Fin.ext ?_)
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 16 + 1 * k.val = k.val; omega
  have hW : ∀ k : Fin 16, iblk6 V c 1 t (ix2 k (j 1)) = V c main_arg20 (ix2 k ((((cfg6.win 3).blk t).view.emb j) 1)) := fun k => by
    show V c main_arg20 (((cfg6.win 1).blk t).view.emb (ix2 k (j 1))) = _
    refine congrArg (V c main_arg20) (funext fun a => Fin.ext ?_)
    match a with
    | ⟨0, _⟩ => show win6_1.index t (0 : Fin 2) * 16 + 1 * k.val = k.val; omega
    | ⟨1, _⟩ => show win6_1.index t (1 : Fin 2) * 8 + 1 * (j 1).val = win6_3.index t (1 : Fin 2) * 8 + 1 * (j 1).val; omega
  have hb : iblk6 V c 2 t (ix2 (0 : Fin 1) (j 1)) = V c main_v117 (ix2 (0 : Fin 1) ((((cfg6.win 3).blk t).view.emb j) 1)) := by
    show V c main_v117 (((cfg6.win 2).blk t).view.emb (ix2 (0 : Fin 1) (j 1))) = _
    refine congrArg (V c main_v117) (funext fun a => Fin.ext ?_)
    match a with
    | ⟨0, _⟩ => show win6_2.index t (0 : Fin 2) * 1 + 1 * 0 = 0; omega
    | ⟨1, _⟩ => show win6_2.index t (1 : Fin 2) * 8 + 1 * (j 1).val = win6_3.index t (1 : Fin 2) * 8 + 1 * (j 1).val; omega
  exact denseLogistic_congr _ _ _ _ _ _ j (((cfg6.win 3).blk t).view.emb j) hX hW hb

/-- What point t writes back is block t of the classifier of the arrays the region found. -/
theorem flushed_eq (c : Dev nD) (t : Fin cfg6.N) :
    (dat6 (F := Ideal) V c).flushed 3 t
      = ((cfg6.win 3).blk t).view.read (Elt Ideal) (denseLogistic (V c main_v116) (V c main_arg20) (V c main_v117)) := by
  show (cfg6.win 3).cut (grid6.coords t) ((dat6 (F := Ideal) V c).after 3 t) = _
  rw [after6_3]
  unfold out6_3
  rw [View.canon_unit_zero zero_offsets]
  simp only [View.ld_unit_zero (S := S5000x16) zero_offsets, View.ld_unit_zero (S := S16x8) zero_offsets, View.ld_unit_zero (S := S1x8) zero_offsets]
  rw [payload]
  funext j
  exact block_entry V c t j

/-- An index of the output array is in point t's block iff each coordinate is in the block's range. -/
theorem mem_block (t : Fin cfg6.N) (i : S100000x8.Idx) :
    i ∈ ((cfg6.win 3).blk t).view.set ↔ ∀ a : Fin 2, win6_3.index t a * S5000x8.size a ≤ (i a).val ∧ (i a).val < win6_3.index t a * S5000x8.size a + S5000x8.size a := by
  show i ∈ ((View.whole main_v118).slice (win6_3.rect t)).set ↔ _
  rw [View.set_slice_whole, Rect.mem_set_unit]
  exact Iff.rfl

/-- The blocks tile the array: row r is in the block of point r / 5000. -/
theorem cover (i : S100000x8.Idx) : ∃ t : Fin cfg6.N, (cfg6.win 3).flush t = true ∧ i ∈ ((cfg6.win 3).blk t).view.set := by
  have hi0 : (i 0).val < 100000 := (i 0).isLt
  have hi1 : (i 1).val < 8 := (i 1).isLt
  obtain ⟨t, ht⟩ := index_onto ⟨(i 0).val / 5000, by omega⟩
  have q0 : win6_3.index t (0 : Fin 2) = (i 0).val / 5000 := congrFun ht 0
  have q1 : win6_3.index t (1 : Fin 2) = 0 := congrFun ht 1
  refine ⟨t, flush6_3 t, ?_⟩
  rw [mem_block]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 8 ≤ (i 1).val ∧ (i 1).val < win6_3.index t (1 : Fin 2) * 8 + 8; omega

/-- The output array after the region: the classifier of the arrays the region found. -/
theorem array (c : Dev nD) :
    (dat6 (F := Ideal) V c).arrAt 3 cfg6.N = denseLogistic (V c main_v116) (V c main_arg20) (V c main_v117) :=
  (dat6 (F := Ideal) V c).arrAt_eq_of_cover 3 _ (fun t _ => flushed_eq V c t) (cover)

end Cert.KernelIdeal.Region6

end
-- ==== Proof.RefSide.lean ====
/-
  The reference program, stage by stage, in the three layer functions.

  The reference's run is a composition of whole-array host operations; its generated reading names every stage
  as a function of the arguments. Here the stages that end a layer are identified with the layer functions of
  the stages before them:
    * each `dot_general` stage is the matrix product of its operands;
    * each stage after a rectifier call is the layer function of the aggregate, the transformed features, the
      column of inverse square-root degrees and the five parameter rows;
    * the result is the classifier of the last layer's output, the weights and the bias row.
  The aggregates (gather, scale, scatter-add over the edges) and the degrees are left as the stages they are:
  the other program computes them by the same operations.
-/
import proofs.«153155_j71640054497345_1_alg».proof.Proof.Gen.ReferenceIdeal.Run
import proofs.«153155_j71640054497345_1_alg».proof.Proof.Gen.ReferenceIdeal.Read
import proofs.«153155_j71640054497345_1_alg».proof.Proof.LibLayerOps

set_option maxRecDepth 16384

noncomputable section

namespace Cert.ReferenceIdeal.Layers

open Cert.ReferenceIdeal Cert.ReferenceIdeal.Read
open Idealize.ShloMosaic Idealize.ShloMosaic.ValueIdx
open Cert.Layer

/-! ## The matrix products -/

theorem product1 (x0 : (⟨S100000x128, .f32⟩ : BufTy).Contents (Elt Ideal)) (x2 : (⟨S128x64, .f32⟩ : BufTy).Contents (Elt Ideal)) :
    val_main_v11 (F := Ideal) x0 x2 = dense x0 x2 := by
  unfold val_main_v11
  exact Cert.LayerOps.dense_host _ rfl rfl lhs_main_v11_0 lhs_main_v11_1 rhs_main_v11_0 rhs_main_v11_1 x0 x2

theorem product2 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 x6 x7 : (⟨S64, .f32⟩ : BufTy).Contents (Elt Ideal)) (x8 : (⟨S64x32, .f32⟩ : BufTy).Contents (Elt Ideal)) :
    val_main_v64 (F := Ideal) x0 x1 x2 x3 x4 x5 x6 x7 x8 = dense (val_main_v63 (F := Ideal) x0 x1 x2 x3 x4 x5 x6 x7) x8 := by
  unfold val_main_v64
  exact Cert.LayerOps.dense_host _ rfl rfl lhs_main_v64_0 lhs_main_v64_1 rhs_main_v64_0 rhs_main_v64_1 _ x8

theorem product3 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 x6 x7 : (⟨S64, .f32⟩ : BufTy).Contents (Elt Ideal)) (x8 : (⟨S64x32, .f32⟩ : BufTy).Contents (Elt Ideal)) (x9 x10 x11 x12 x13 : (⟨S32, .f32⟩ : BufTy).Contents (Elt Ideal)) (x14 : (⟨S32x16, .f32⟩ : BufTy).Contents (Elt Ideal)) :
    val_main_v117 (F := Ideal) x0 x1 x2 x3 x4 x5 x6 x7 x8 x9 x10 x11 x12 x13 x14 = dense (val_main_v116 (F := Ideal) x0 x1 x2 x3 x4 x5 x6 x7 x8 x9 x10 x11 x12 x13) x14 := by
  unfold val_main_v117
  exact Cert.LayerOps.dense_host _ rfl rfl lhs_main_v117_0 lhs_main_v117_1 rhs_main_v117_0 rhs_main_v117_1 _ x14

theorem product4 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 x6 x7 : (⟨S64, .f32⟩ : BufTy).Contents (Elt Ideal)) (x8 : (⟨S64x32, .f32⟩ : BufTy).Contents (Elt Ideal)) (x9 x10 x11 x12 x13 : (⟨S32, .f32⟩ : BufTy).Contents (Elt Ideal)) (x14 : (⟨S32x16, .f32⟩ : BufTy).Contents (Elt Ideal)) (x15 x16 x17 x18 x19 : (⟨S16, .f32⟩ : BufTy).Contents (Elt Ideal)) (x20 : (⟨S16x8, .f32⟩ : BufTy).Contents (Elt Ideal)) :
    val_main_v170 (F := Ideal) x0 x1 x2 x3 x4 x5 x6 x7 x8 x9 x10 x11 x12 x13 x14 x15 x16 x17 x18 x19 x20 = dense (val_main_v169 (F := Ideal) x0 x1 x2 x3 x4 x5 x6 x7 x8 x9 x10 x11 x12 x13 x14 x15 x16 x17 x18 x19) x20 := by
  unfold val_main_v170
  exact Cert.LayerOps.dense_host _ rfl rfl lhs_main_v170_0 lhs_main_v170_1 rhs_main_v170_0 rhs_main_v170_1 _ x20

/-! ## The three layers -/

theorem layer1 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 x6 x7 : (⟨S64, .f32⟩ : BufTy).Contents (Elt Ideal)) (cd : S100000.ShapeCasts S100000x1) (cp : S64.ShapeCasts S1x64) :
    val_main_v63 (F := Ideal) x0 x1 x2 x3 x4 x5 x6 x7
      = normRelu (val_main_v39 (F := Ideal) x0 x1 x2) (val_main_v11 (F := Ideal) x0 x2) (shapeCast S100000x1 (val_main_v10 (F := Ideal) x1) cd)
          (shapeCast S1x64 x3 cp) (shapeCast S1x64 x4 cp) (shapeCast S1x64 x5 cp) (shapeCast S1x64 x6 cp) (shapeCast S1x64 x7 cp) := by
  unfold val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_cst_8 val_main_call0_v0 val_main_call0_cst
  exact Cert.LayerOps.normRelu_host _ _ (val_main_v10 (F := Ideal) x1) x3 x4 x5 x6 x7 _ _ _ _ _ _ cd cp

theorem layer2 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 x6 x7 : (⟨S64, .f32⟩ : BufTy).Contents (Elt Ideal)) (x8 : (⟨S64x32, .f32⟩ : BufTy).Contents (Elt Ideal)) (x9 x10 x11 x12 x13 : (⟨S32, .f32⟩ : BufTy).Contents (Elt Ideal)) (cd : S100000.ShapeCasts S100000x1) (cp : S32.ShapeCasts S1x32) :
    val_main_v116 (F := Ideal) x0 x1 x2 x3 x4 x5 x6 x7 x8 x9 x10 x11 x12 x13
      = normRelu (val_main_v92 (F := Ideal) x0 x1 x2 x3 x4 x5 x6 x7 x8) (val_main_v64 (F := Ideal) x0 x1 x2 x3 x4 x5 x6 x7 x8) (shapeCast S100000x1 (val_main_v10 (F := Ideal) x1) cd)
          (shapeCast S1x32 x9 cp) (shapeCast S1x32 x10 cp) (shapeCast S1x32 x11 cp) (shapeCast S1x32 x12 cp) (shapeCast S1x32 x13 cp) := by
  unfold val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_cst_16 val_main_call1_v0 val_main_call1_cst
  exact Cert.LayerOps.normRelu_host _ _ (val_main_v10 (F := Ideal) x1) x9 x10 x11 x12 x13 _ _ _ _ _ _ cd cp

theorem layer3 (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 x6 x7 : (⟨S64, .f32⟩ : BufTy).Contents (Elt Ideal)) (x8 : (⟨S64x32, .f32⟩ : BufTy).Contents (Elt Ideal)) (x9 x10 x11 x12 x13 : (⟨S32, .f32⟩ : BufTy).Contents (Elt Ideal)) (x14 : (⟨S32x16, .f32⟩ : BufTy).Contents (Elt Ideal)) (x15 x16 x17 x18 x19 : (⟨S16, .f32⟩ : BufTy).Contents (Elt Ideal)) (cd : S100000.ShapeCasts S100000x1) (cp : S16.ShapeCasts S1x16) :
    val_main_v169 (F := Ideal) x0 x1 x2 x3 x4 x5 x6 x7 x8 x9 x10 x11 x12 x13 x14 x15 x16 x17 x18 x19
      = normRelu (val_main_v145 (F := Ideal) x0 x1 x2 x3 x4 x5 x6 x7 x8 x9 x10 x11 x12 x13 x14) (val_main_v117 (F := Ideal) x0 x1 x2 x3 x4 x5 x6 x7 x8 x9 x10 x11 x12 x13 x14) (shapeCast S100000x1 (val_main_v10 (F := Ideal) x1) cd)
          (shapeCast S1x16 x15 cp) (shapeCast S1x16 x16 cp) (shapeCast S1x16 x17 cp) (shapeCast S1x16 x18 cp) (shapeCast S1x16 x19 cp) := by
  unfold val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v148 val_main_v147 val_main_v146 val_main_cst_24 val_main_call2_v0 val_main_call2_cst
  exact Cert.LayerOps.normRelu_host _ _ (val_main_v10 (F := Ideal) x1) x15 x16 x17 x18 x19 _ _ _ _ _ _ cd cp

/-! ## The classifier -/

theorem classifier (x0 : (⟨S100000x128, .f32⟩ : BufTy).Contents (Elt Ideal)) (x1 : (⟨S2x1600000, .i32⟩ : BufTy).Contents (Elt Ideal)) (x2 : (⟨S128x64, .f32⟩ : BufTy).Contents (Elt Ideal)) (x3 x4 x5 x6 x7 : (⟨S64, .f32⟩ : BufTy).Contents (Elt Ideal)) (x8 : (⟨S64x32, .f32⟩ : BufTy).Contents (Elt Ideal)) (x9 x10 x11 x12 x13 : (⟨S32, .f32⟩ : BufTy).Contents (Elt Ideal)) (x14 : (⟨S32x16, .f32⟩ : BufTy).Contents (Elt Ideal)) (x15 x16 x17 x18 x19 : (⟨S16, .f32⟩ : BufTy).Contents (Elt Ideal)) (x20 : (⟨S16x8, .f32⟩ : BufTy).Contents (Elt Ideal)) (x21 : (⟨S8, .f32⟩ : BufTy).Contents (Elt Ideal)) (cp : S8.ShapeCasts S1x8) :
    val_main_v179 (F := Ideal) x0 x1 x2 x3 x4 x5 x6 x7 x8 x9 x10 x11 x12 x13 x14 x15 x16 x17 x18 x19 x20 x21 = denseLogistic (val_main_v169 (F := Ideal) x0 x1 x2 x3 x4 x5 x6 x7 x8 x9 x10 x11 x12 x13 x14 x15 x16 x17 x18 x19) x20 (shapeCast S1x8 x21 cp) := by
  unfold val_main_v179 val_main_v178 val_main_cst_26 val_main_v177 val_main_v176 val_main_cst_25 val_main_v175 val_main_v174 val_main_v173 val_main_v172 val_main_v171
  rw [Cert.LayerOps.logistic_host (val_main_v170 (F := Ideal) x0 x1 x2 x3 x4 x5 x6 x7 x8 x9 x10 x11 x12 x13 x14 x15 x16 x17 x18 x19 x20) x21 _ _ _ cp, product4]
  rfl

end Cert.ReferenceIdeal.Layers

end
-- ==== Proof.Fold.lean ====
/-
  The kernel program's result, boundary by boundary.

  Following the buffers from the launch to the return:
    * the edge endpoints, the inverse square-root degrees and their column form are computed by the first host
      stretch, by the reference's own operations;
    * each layer's transformed features are the product of the previous activations and the weights: the
      reference's `dot_general` stage;
    * each layer's aggregate is computed by a host stretch with the operations the reference uses (gather along
      the edges, scale by the product of the two endpoint degrees, scatter-add), so it is the reference's
      aggregate stage of the same arguments;
    * each layer's activations are the layer function of the aggregate, the features, the degree column and the
      parameter rows, which is the reference's stage after that layer's rectifier;
    * the result is the classifier of the last activations: the reference's result stage.
-/
import proofs.«153155_j71640054497345_1_alg».proof.Proof.FoldKeep
import proofs.«153155_j71640054497345_1_alg».proof.Proof.Region0
import proofs.«153155_j71640054497345_1_alg».proof.Proof.Region1
import proofs.«153155_j71640054497345_1_alg».proof.Proof.Region2
import proofs.«153155_j71640054497345_1_alg».proof.Proof.Region3
import proofs.«153155_j71640054497345_1_alg».proof.Proof.Region4
import proofs.«153155_j71640054497345_1_alg».proof.Proof.Region5
import proofs.«153155_j71640054497345_1_alg».proof.Proof.Region6
import proofs.«153155_j71640054497345_1_alg».proof.Proof.RefSide

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)
open Cert.Layer
open Cert.ReferenceIdeal.Read (val_main_v1 val_main_v3 val_main_v10 val_main_v11 val_main_v39 val_main_v63 val_main_v64 val_main_v92 val_main_v116 val_main_v117 val_main_v145 val_main_v169 val_main_v179)

variable (m : (ℓ : Loc nD τ sig) → Buf (Elt Ideal) ℓ) (ρ : Dev nD → PrngReg) (c : Dev nD)

/-! ## The first host stretch: edge endpoints and degrees -/

/-- The edges' source endpoints. -/
theorem src_1 : W1 m ρ c (Proc.devRef .tc main_v1) = val_main_v1 (F := Ideal) (X1 m c) := by
  show StableHlo.after hostOps0 (W0 m ρ c) (Proc.devRef .tc main_v1) = _
  after_results_simp
  rfl

/-- The edges' destination endpoints. -/
theorem dst_1 : W1 m ρ c (Proc.devRef .tc main_v3) = val_main_v3 (F := Ideal) (X1 m c) := by
  show StableHlo.after hostOps0 (W0 m ρ c) (Proc.devRef .tc main_v3) = _
  after_results_simp
  rfl

/-- The inverse square roots of the degrees (in-degree plus the self-loop). -/
theorem dinv_1 : W1 m ρ c (Proc.devRef .tc main_v10) = val_main_v10 (F := Ideal) (X1 m c) := by
  show StableHlo.after hostOps0 (W0 m ρ c) (Proc.devRef .tc main_v10) = _
  after_results_simp
  rfl

/-- The same as a column. -/
theorem dcol_1 : W1 m ρ c (Proc.devRef .tc main_v11) = shapeCast S100000x1 (val_main_v10 (F := Ideal) (X1 m c)) shapeCasts_S100000_S100000x1 := by
  show StableHlo.after hostOps0 (W0 m ρ c) (Proc.devRef .tc main_v11) = _
  after_results_simp
  rfl

/-! ## Layer 1's transformed features -/

/-- The product of the node features and the first weights: the reference's first `dot_general` stage. -/
theorem hw1 : W2 m ρ c (Proc.devRef .tc main_v12) = val_main_v11 (F := Ideal) (X0 m c) (X2 m c) :=
  (W2_arr m ρ c 2).trans ((Region0.array (V1 m ρ) c).trans
    ((dense_eq (arg0_at m ρ c) (arg2_at m ρ c)).trans (Cert.ReferenceIdeal.Layers.product1 (X0 m c) (X2 m c)).symm))

/-! ## Layer 1 -/

/-- The aggregate of layer 1: the host stretch gathers the transformed features and the degrees along the edges, scales and scatter-adds, as the reference does. -/
theorem agg1 : W3 m ρ c (Proc.devRef .tc main_v40) = val_main_v39 (F := Ideal) (X0 m c) (X1 m c) (X2 m c) := by
  show StableHlo.after hostOps1 (W2 m ρ c) (Proc.devRef .tc main_v40) = _
  after_results_simp
  rw [hw1 m ρ c, src_keep2 m ρ c, dst_keep2 m ρ c, dinv_keep2 m ρ c, src_1 m ρ c, dst_1 m ρ c, dinv_1 m ρ c]
  rfl

/-- A parameter vector of layer 1 as a one-row matrix. -/
theorem bias1 : W3 m ρ c (Proc.devRef .tc main_v41) = shapeCast S1x64 (X3 m c) shapeCasts_S64_S1x64 := by
  show StableHlo.after hostOps1 (W2 m ρ c) (Proc.devRef .tc main_v41) = _
  after_results_simp
  rw [arg3_at m ρ c]
  rfl

/-- A parameter vector of layer 1 as a one-row matrix. -/
theorem gain1 : W3 m ρ c (Proc.devRef .tc main_v42) = shapeCast S1x64 (X4 m c) shapeCasts_S64_S1x64 := by
  show StableHlo.after hostOps1 (W2 m ρ c) (Proc.devRef .tc main_v42) = _
  after_results_simp
  rw [arg4_at m ρ c]
  rfl

/-- A parameter vector of layer 1 as a one-row matrix. -/
theorem shift1 : W3 m ρ c (Proc.devRef .tc main_v43) = shapeCast S1x64 (X5 m c) shapeCasts_S64_S1x64 := by
  show StableHlo.after hostOps1 (W2 m ρ c) (Proc.devRef .tc main_v43) = _
  after_results_simp
  rw [arg5_at m ρ c]
  rfl

/-- A parameter vector of layer 1 as a one-row matrix. -/
theorem mean1 : W3 m ρ c (Proc.devRef .tc main_v44) = shapeCast S1x64 (X6 m c) shapeCasts_S64_S1x64 := by
  show StableHlo.after hostOps1 (W2 m ρ c) (Proc.devRef .tc main_v44) = _
  after_results_simp
  rw [arg6_at m ρ c]
  rfl

/-- A parameter vector of layer 1 as a one-row matrix. -/
theorem var1 : W3 m ρ c (Proc.devRef .tc main_v45) = shapeCast S1x64 (X7 m c) shapeCasts_S64_S1x64 := by
  show StableHlo.after hostOps1 (W2 m ρ c) (Proc.devRef .tc main_v45) = _
  after_results_simp
  rw [arg7_at m ρ c]
  rfl

/-- The transformed features of layer 1 where the layer's second region reads them. -/
theorem hw1_in : W3 m ρ c (Proc.devRef .tc main_v12) = val_main_v11 (F := Ideal) (X0 m c) (X2 m c) := (hw1_keep3 m ρ c).trans (hw1 m ρ c)

/-- The degree column where layer 1's second region reads it. -/
theorem dcol1_in : W3 m ρ c (Proc.devRef .tc main_v11) = shapeCast S100000x1 (val_main_v10 (F := Ideal) (X1 m c)) shapeCasts_S100000_S100000x1 :=
  (dcol_keep3 m ρ c).trans (dcol_1 m ρ c)

/-- The activations of layer 1: the reference's stage after the layer's rectifier. -/
theorem act1 : W4 m ρ c (Proc.devRef .tc main_v46) = val_main_v63 (F := Ideal) (X0 m c) (X1 m c) (X2 m c) (X3 m c) (X4 m c) (X5 m c) (X6 m c) (X7 m c) :=
  (W4_arr m ρ c 8).trans ((Region1.array (V3 m ρ) c).trans
    ((normRelu_eq (agg1 m ρ c) (hw1_in m ρ c) (dcol1_in m ρ c) (bias1 m ρ c) (gain1 m ρ c) (shift1 m ρ c) (mean1 m ρ c) (var1 m ρ c)).trans
      (Cert.ReferenceIdeal.Layers.layer1 (X0 m c) (X1 m c) (X2 m c) (X3 m c) (X4 m c) (X5 m c) (X6 m c) (X7 m c) shapeCasts_S100000_S100000x1 shapeCasts_S64_S1x64).symm))

/-! ## Layer 2's transformed features -/

/-- The product of layer 1's activations and the second weights. -/
theorem hw2 : W5 m ρ c (Proc.devRef .tc main_v47) = val_main_v64 (F := Ideal) (X0 m c) (X1 m c) (X2 m c) (X3 m c) (X4 m c) (X5 m c) (X6 m c) (X7 m c) (X8 m c) :=
  (W5_arr m ρ c 2).trans ((Region2.array (V4 m ρ) c).trans
    ((dense_eq (act1 m ρ c) (arg8_at m ρ c)).trans (Cert.ReferenceIdeal.Layers.product2 (X0 m c) (X1 m c) (X2 m c) (X3 m c) (X4 m c) (X5 m c) (X6 m c) (X7 m c) (X8 m c)).symm))

/-! ## Layer 2 -/

/-- The aggregate of layer 2: the host stretch gathers the transformed features and the degrees along the edges, scales and scatter-adds, as the reference does. -/
theorem agg2 : W6 m ρ c (Proc.devRef .tc main_v75) = val_main_v92 (F := Ideal) (X0 m c) (X1 m c) (X2 m c) (X3 m c) (X4 m c) (X5 m c) (X6 m c) (X7 m c) (X8 m c) := by
  show StableHlo.after hostOps3 (W5 m ρ c) (Proc.devRef .tc main_v75) = _
  after_results_simp
  rw [hw2 m ρ c, src_keep5 m ρ c, dst_keep5 m ρ c, dinv_keep5 m ρ c, src_1 m ρ c, dst_1 m ρ c, dinv_1 m ρ c]
  rfl

/-- A parameter vector of layer 2 as a one-row matrix. -/
theorem bias2 : W6 m ρ c (Proc.devRef .tc main_v76) = shapeCast S1x32 (X9 m c) shapeCasts_S32_S1x32 := by
  show StableHlo.after hostOps3 (W5 m ρ c) (Proc.devRef .tc main_v76) = _
  after_results_simp
  rw [arg9_at m ρ c]
  rfl

/-- A parameter vector of layer 2 as a one-row matrix. -/
theorem gain2 : W6 m ρ c (Proc.devRef .tc main_v77) = shapeCast S1x32 (X10 m c) shapeCasts_S32_S1x32 := by
  show StableHlo.after hostOps3 (W5 m ρ c) (Proc.devRef .tc main_v77) = _
  after_results_simp
  rw [arg10_at m ρ c]
  rfl

/-- A parameter vector of layer 2 as a one-row matrix. -/
theorem shift2 : W6 m ρ c (Proc.devRef .tc main_v78) = shapeCast S1x32 (X11 m c) shapeCasts_S32_S1x32 := by
  show StableHlo.after hostOps3 (W5 m ρ c) (Proc.devRef .tc main_v78) = _
  after_results_simp
  rw [arg11_at m ρ c]
  rfl

/-- A parameter vector of layer 2 as a one-row matrix. -/
theorem mean2 : W6 m ρ c (Proc.devRef .tc main_v79) = shapeCast S1x32 (X12 m c) shapeCasts_S32_S1x32 := by
  show StableHlo.after hostOps3 (W5 m ρ c) (Proc.devRef .tc main_v79) = _
  after_results_simp
  rw [arg12_at m ρ c]
  rfl

/-- A parameter vector of layer 2 as a one-row matrix. -/
theorem var2 : W6 m ρ c (Proc.devRef .tc main_v80) = shapeCast S1x32 (X13 m c) shapeCasts_S32_S1x32 := by
  show StableHlo.after hostOps3 (W5 m ρ c) (Proc.devRef .tc main_v80) = _
  after_results_simp
  rw [arg13_at m ρ c]
  rfl

/-- The transformed features of layer 2 where the layer's second region reads them. -/
theorem hw2_in : W6 m ρ c (Proc.devRef .tc main_v47) = val_main_v64 (F := Ideal) (X0 m c) (X1 m c) (X2 m c) (X3 m c) (X4 m c) (X5 m c) (X6 m c) (X7 m c) (X8 m c) := (hw2_keep6 m ρ c).trans (hw2 m ρ c)

/-- The degree column where layer 2's second region reads it. -/
theorem dcol2_in : W6 m ρ c (Proc.devRef .tc main_v11) = shapeCast S100000x1 (val_main_v10 (F := Ideal) (X1 m c)) shapeCasts_S100000_S100000x1 :=
  (dcol_keep6 m ρ c).trans (dcol_1 m ρ c)

/-- The activations of layer 2: the reference's stage after the layer's rectifier. -/
theorem act2 : W7 m ρ c (Proc.devRef .tc main_v81) = val_main_v116 (F := Ideal) (X0 m c) (X1 m c) (X2 m c) (X3 m c) (X4 m c) (X5 m c) (X6 m c) (X7 m c) (X8 m c) (X9 m c) (X10 m c) (X11 m c) (X12 m c) (X13 m c) :=
  (W7_arr m ρ c 8).trans ((Region3.array (V6 m ρ) c).trans
    ((normRelu_eq (agg2 m ρ c) (hw2_in m ρ c) (dcol2_in m ρ c) (bias2 m ρ c) (gain2 m ρ c) (shift2 m ρ c) (mean2 m ρ c) (var2 m ρ c)).trans
      (Cert.ReferenceIdeal.Layers.layer2 (X0 m c) (X1 m c) (X2 m c) (X3 m c) (X4 m c) (X5 m c) (X6 m c) (X7 m c) (X8 m c) (X9 m c) (X10 m c) (X11 m c) (X12 m c) (X13 m c) shapeCasts_S100000_S100000x1 shapeCasts_S32_S1x32).symm))

/-! ## Layer 3's transformed features -/

/-- The product of layer 2's activations and the third weights. -/
theorem hw3 : W8 m ρ c (Proc.devRef .tc main_v82) = val_main_v117 (F := Ideal) (X0 m c) (X1 m c) (X2 m c) (X3 m c) (X4 m c) (X5 m c) (X6 m c) (X7 m c) (X8 m c) (X9 m c) (X10 m c) (X11 m c) (X12 m c) (X13 m c) (X14 m c) :=
  (W8_arr m ρ c 2).trans ((Region4.array (V7 m ρ) c).trans
    ((dense_eq (act2 m ρ c) (arg14_at m ρ c)).trans (Cert.ReferenceIdeal.Layers.product3 (X0 m c) (X1 m c) (X2 m c) (X3 m c) (X4 m c) (X5 m c) (X6 m c) (X7 m c) (X8 m c) (X9 m c) (X10 m c) (X11 m c) (X12 m c) (X13 m c) (X14 m c)).symm))

/-! ## Layer 3 -/

/-- The aggregate of layer 3: the host stretch gathers the transformed features and the degrees along the edges, scales and scatter-adds, as the reference does. -/
theorem agg3 : W9 m ρ c (Proc.devRef .tc main_v110) = val_main_v145 (F := Ideal) (X0 m c) (X1 m c) (X2 m c) (X3 m c) (X4 m c) (X5 m c) (X6 m c) (X7 m c) (X8 m c) (X9 m c) (X10 m c) (X11 m c) (X12 m c) (X13 m c) (X14 m c) := by
  show StableHlo.after hostOps5 (W8 m ρ c) (Proc.devRef .tc main_v110) = _
  after_results_simp
  rw [hw3 m ρ c, src_keep8 m ρ c, dst_keep8 m ρ c, dinv_keep8 m ρ c, src_1 m ρ c, dst_1 m ρ c, dinv_1 m ρ c]
  rfl

/-- A parameter vector of layer 3 as a one-row matrix. -/
theorem bias3 : W9 m ρ c (Proc.devRef .tc main_v111) = shapeCast S1x16 (X15 m c) shapeCasts_S16_S1x16 := by
  show StableHlo.after hostOps5 (W8 m ρ c) (Proc.devRef .tc main_v111) = _
  after_results_simp
  rw [arg15_at m ρ c]
  rfl

/-- A parameter vector of layer 3 as a one-row matrix. -/
theorem gain3 : W9 m ρ c (Proc.devRef .tc main_v112) = shapeCast S1x16 (X16 m c) shapeCasts_S16_S1x16 := by
  show StableHlo.after hostOps5 (W8 m ρ c) (Proc.devRef .tc main_v112) = _
  after_results_simp
  rw [arg16_at m ρ c]
  rfl

/-- A parameter vector of layer 3 as a one-row matrix. -/
theorem shift3 : W9 m ρ c (Proc.devRef .tc main_v113) = shapeCast S1x16 (X17 m c) shapeCasts_S16_S1x16 := by
  show StableHlo.after hostOps5 (W8 m ρ c) (Proc.devRef .tc main_v113) = _
  after_results_simp
  rw [arg17_at m ρ c]
  rfl

/-- A parameter vector of layer 3 as a one-row matrix. -/
theorem mean3 : W9 m ρ c (Proc.devRef .tc main_v114) = shapeCast S1x16 (X18 m c) shapeCasts_S16_S1x16 := by
  show StableHlo.after hostOps5 (W8 m ρ c) (Proc.devRef .tc main_v114) = _
  after_results_simp
  rw [arg18_at m ρ c]
  rfl

/-- A parameter vector of layer 3 as a one-row matrix. -/
theorem var3 : W9 m ρ c (Proc.devRef .tc main_v115) = shapeCast S1x16 (X19 m c) shapeCasts_S16_S1x16 := by
  show StableHlo.after hostOps5 (W8 m ρ c) (Proc.devRef .tc main_v115) = _
  after_results_simp
  rw [arg19_at m ρ c]
  rfl

/-- The transformed features of layer 3 where the layer's second region reads them. -/
theorem hw3_in : W9 m ρ c (Proc.devRef .tc main_v82) = val_main_v117 (F := Ideal) (X0 m c) (X1 m c) (X2 m c) (X3 m c) (X4 m c) (X5 m c) (X6 m c) (X7 m c) (X8 m c) (X9 m c) (X10 m c) (X11 m c) (X12 m c) (X13 m c) (X14 m c) := (hw3_keep9 m ρ c).trans (hw3 m ρ c)

/-- The degree column where layer 3's second region reads it. -/
theorem dcol3_in : W9 m ρ c (Proc.devRef .tc main_v11) = shapeCast S100000x1 (val_main_v10 (F := Ideal) (X1 m c)) shapeCasts_S100000_S100000x1 :=
  (dcol_keep9 m ρ c).trans (dcol_1 m ρ c)

/-- The activations of layer 3: the reference's stage after the layer's rectifier. -/
theorem act3 : W10 m ρ c (Proc.devRef .tc main_v116) = val_main_v169 (F := Ideal) (X0 m c) (X1 m c) (X2 m c) (X3 m c) (X4 m c) (X5 m c) (X6 m c) (X7 m c) (X8 m c) (X9 m c) (X10 m c) (X11 m c) (X12 m c) (X13 m c) (X14 m c) (X15 m c) (X16 m c) (X17 m c) (X18 m c) (X19 m c) :=
  (W10_arr m ρ c 8).trans ((Region5.array (V9 m ρ) c).trans
    ((normRelu_eq (agg3 m ρ c) (hw3_in m ρ c) (dcol3_in m ρ c) (bias3 m ρ c) (gain3 m ρ c) (shift3 m ρ c) (mean3 m ρ c) (var3 m ρ c)).trans
      (Cert.ReferenceIdeal.Layers.layer3 (X0 m c) (X1 m c) (X2 m c) (X3 m c) (X4 m c) (X5 m c) (X6 m c) (X7 m c) (X8 m c) (X9 m c) (X10 m c) (X11 m c) (X12 m c) (X13 m c) (X14 m c) (X15 m c) (X16 m c) (X17 m c) (X18 m c) (X19 m c) shapeCasts_S100000_S100000x1 shapeCasts_S16_S1x16).symm))

/-! ## The classifier -/

/-- The classifier's bias as a one-row matrix. -/
theorem fcbias : W11 m ρ c (Proc.devRef .tc main_v117) = shapeCast S1x8 (X21 m c) shapeCasts_S8_S1x8 := by
  show StableHlo.after hostOps6 (W10 m ρ c) (Proc.devRef .tc main_v117) = _
  after_results_simp
  rw [arg21_at m ρ c]
  rfl

/-- The result array at the return: the reference's result stage of the arguments as launched. -/
theorem result : W12 m ρ c (Proc.devRef .tc main_v118) = val_main_v179 (F := Ideal) (X0 m c) (X1 m c) (X2 m c) (X3 m c) (X4 m c) (X5 m c) (X6 m c) (X7 m c) (X8 m c) (X9 m c) (X10 m c) (X11 m c) (X12 m c) (X13 m c) (X14 m c) (X15 m c) (X16 m c) (X17 m c) (X18 m c) (X19 m c) (X20 m c) (X21 m c) :=
  (W12_arr m ρ c 3).trans ((Region6.array (V11 m ρ) c).trans
    ((denseLogistic_eq ((act3_keep11 m ρ c).trans (act3 m ρ c)) (arg20_at m ρ c) (fcbias m ρ c)).trans
      (Cert.ReferenceIdeal.Layers.classifier (X0 m c) (X1 m c) (X2 m c) (X3 m c) (X4 m c) (X5 m c) (X6 m c) (X7 m c) (X8 m c) (X9 m c) (X10 m c) (X11 m c) (X12 m c) (X13 m c) (X14 m c) (X15 m c) (X16 m c) (X17 m c) (X18 m c) (X19 m c) (X20 m c) (X21 m c) shapeCasts_S8_S1x8).symm))

end Cert.KernelIdeal.Fold

end
-- ==== Proof.lean ====
/-
  A three-layer graph-convolution network (feature transform, normalized aggregation over the edges with
  self-loops, normalization by running statistics, rectifier; then a linear classifier with the logistic
  function) computed by seven kernel regions among host stretches, against the plain array program.

  On the extended reals both programs compute the same function of the arguments, operation by operation:
    * the inverse square-root degrees and each layer's gather, scale and scatter-add over the edges are host
      operations in both programs, the same ones in the same order;
    * each feature transform is a matrix product: in the kernel a product into a zero accumulator, block of
      rows by block of rows, in the reference one `dot_general`; an entry of a product depends only on its
      row of the left operand, so the blocks are the blocks of the whole product;
    * each layer's self-loop term, bias, normalization and rectifier are entrywise in the same grouping in
      both programs (no sum or product is regrouped, so no finiteness is needed); the kernel reads the degree
      column and the parameter rows through reshapes and in-kernel broadcasts, the reference through
      broadcasts of the vectors, and at an entry both read the same numbers;
    * the logistic function is 1 / (1 + exp (−z)) in both.
  No constant is renamed, so the kernel's idealization has nothing to preserve.

  The kernel program's run is read off its frame's segments with the result array named (KernelRun), the result
  is followed through the twelve segments to the reference's result stage of the arguments (Fold, over the
  region lemmas Region0 … Region6 and the reference's stages in RefSide), and the reference's run is its
  generated one.
-/
import proofs.«153155_j71640054497345_1_alg».proof.Defs
import proofs.«153155_j71640054497345_1_alg».proof.Proof.Gen.Kernel
import proofs.«153155_j71640054497345_1_alg».proof.Proof.Gen.Kernel.Frame
import proofs.«153155_j71640054497345_1_alg».proof.Proof.Gen.KernelIdeal
import proofs.«153155_j71640054497345_1_alg».proof.Proof.Gen.KernelIdeal.Frame
import proofs.«153155_j71640054497345_1_alg».proof.Proof.Gen.ReferenceIdeal
import proofs.«153155_j71640054497345_1_alg».proof.Proof.Gen.ReferenceIdeal.Run
import proofs.«153155_j71640054497345_1_alg».proof.Proof.Gen.ReferenceIdeal.Read
import proofs.«153155_j71640054497345_1_alg».proof.Proof.Gen.Pre_finite_inputs
import proofs.«153155_j71640054497345_1_alg».proof.Proof.KernelRun
import proofs.«153155_j71640054497345_1_alg».proof.Proof.Fold
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result at the reference's result stage of the arguments as launched: the kernel's by
    following its buffers through the segments, the reference's by its generated run, the two memories agreeing on
    the arguments. -/
theorem algebraic : Cert.algebraic_KernelIdeal_ReferenceIdeal := by
  intro m ρ m' ρ' _ hagree
  refine ⟨fun c => Cert.ReferenceIdeal.Read.val_main_v179 (F := Ideal) (Cert.KernelIdeal.Fold.X0 m c) (Cert.KernelIdeal.Fold.X1 m c) (Cert.KernelIdeal.Fold.X2 m c) (Cert.KernelIdeal.Fold.X3 m c) (Cert.KernelIdeal.Fold.X4 m c) (Cert.KernelIdeal.Fold.X5 m c) (Cert.KernelIdeal.Fold.X6 m c) (Cert.KernelIdeal.Fold.X7 m c) (Cert.KernelIdeal.Fold.X8 m c) (Cert.KernelIdeal.Fold.X9 m c) (Cert.KernelIdeal.Fold.X10 m c) (Cert.KernelIdeal.Fold.X11 m c) (Cert.KernelIdeal.Fold.X12 m c) (Cert.KernelIdeal.Fold.X13 m c) (Cert.KernelIdeal.Fold.X14 m c) (Cert.KernelIdeal.Fold.X15 m c) (Cert.KernelIdeal.Fold.X16 m c) (Cert.KernelIdeal.Fold.X17 m c) (Cert.KernelIdeal.Fold.X18 m c) (Cert.KernelIdeal.Fold.X19 m c) (Cert.KernelIdeal.Fold.X20 m c) (Cert.KernelIdeal.Fold.X21 m c), ?_, ?_⟩
  · exact (θ_run Cert.KernelIdeal.defs _ _).mono
      (fun r h c => ⟨(h c).1.trans (Cert.KernelIdeal.Fold.result m ρ c), (h c).2⟩) (Cert.KernelIdeal.Whole.run m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21⟩ := hagree c
    rw [Cert.ReferenceIdeal.Read.val_main_v179_eq, h0, h1, h2, h3, h4, h5, h6, h7, h8, h9, h10, h11, h12, h13, h14, h15, h16, h17, h18, h19, h20, h21]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
